-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2000000 : Shape := ⟨2, ![2, 2000000]⟩
abbrev S150000x64 : Shape := ⟨2, ![150000, 64]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel

variable [Facts]

def fn {F : FTy → Type} [FloatOps F] (main_arg0 : IVec S2x2000000 32) (main_arg1 : FVec F S150000x64 .f32) : IVec S_ 1 :=
  let main_v0 : FVec F S150000x64 .f32 := Host.absf main_arg1
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  main_v3
-- ==== Kernel.lean ====
abbrev S2x2000000 : Shape := ⟨2, ![2, 2000000]⟩
abbrev S150000x64 : Shape := ⟨2, ![150000, 64]⟩
abbrev S1x2000000 : Shape := ⟨2, ![1, 2000000]⟩
abbrev S2000000 : Shape := ⟨1, ![2000000]⟩
abbrev S_ : Shape := ⟨0, ![]⟩
abbrev S150000 : Shape := ⟨1, ![150000]⟩
abbrev S2000000x1 : Shape := ⟨2, ![2000000, 1]⟩
abbrev S10000x64 : Shape := ⟨2, ![10000, 64]⟩
abbrev S2000000x64 : Shape := ⟨2, ![2000000, 64]⟩
abbrev S10000x1 : Shape := ⟨2, ![10000, 1]⟩

abbrev nBuf : Space → Nat
  | .hbm => 95
  | .vmem => 42
  | .smem => 0
  | _ => 0

abbrev bufTy : (tb : Table) → Fin (tcTables nBuf tb) → BufTy
  | .hbm, ⟨0, _⟩ => ⟨S2x2000000, .i32⟩
  | .hbm, ⟨1, _⟩ => ⟨S150000x64, .f32⟩
  | .hbm, ⟨2, _⟩ => ⟨S1x2000000, .i32⟩
  | .hbm, ⟨3, _⟩ => ⟨S2000000, .i32⟩
  | .hbm, ⟨4, _⟩ => ⟨S1x2000000, .i32⟩
  | .hbm, ⟨5, _⟩ => ⟨S2000000, .i32⟩
  | .hbm, ⟨6, _⟩ => ⟨S_, .f32⟩
  | .hbm, ⟨7, _⟩ => ⟨S2000000, .f32⟩
  | .hbm, ⟨8, _⟩ => ⟨S_, .f32⟩
  | .hbm, ⟨9, _⟩ => ⟨S150000, .f32⟩
  | .hbm, ⟨10, _⟩ => ⟨S2000000x1, .i32⟩
  | .hbm, ⟨11, _⟩ => ⟨S150000, .f32⟩
  | .hbm, ⟨12, _⟩ => ⟨S_, .f32⟩
  | .hbm, ⟨13, _⟩ => ⟨S150000, .f32⟩
  | .hbm, ⟨14, _⟩ => ⟨S150000, .i1⟩
  | .hbm, ⟨15, _⟩ => ⟨S_, .f32⟩
  | .hbm, ⟨16, _⟩ => ⟨S150000, .f32⟩
  | .hbm, ⟨17, _⟩ => ⟨S150000, .i1⟩
  | .hbm, ⟨18, _⟩ => ⟨S_, .f32⟩
  | .hbm, ⟨19, _⟩ => ⟨S_, .f32⟩
  | .hbm, ⟨20, _⟩ => ⟨S150000, .f32⟩
  | .hbm, ⟨21, _⟩ => ⟨S150000, .f32⟩
  | .hbm, ⟨22, _⟩ => ⟨S150000, .f32⟩
  | .hbm, ⟨23, _⟩ => ⟨S_, .f32⟩
  | .hbm, ⟨24, _⟩ => ⟨S_, .f32⟩
  | .hbm, ⟨25, _⟩ => ⟨S150000, .f32⟩
  | .hbm, ⟨26, _⟩ => ⟨S150000, .f32⟩
  | .hbm, ⟨27, _⟩ => ⟨S_, .i32⟩
  | .hbm, ⟨28, _⟩ => ⟨S2000000, .i32⟩
  | .hbm, ⟨29, _⟩ => ⟨S2000000, .i1⟩
  | .hbm, ⟨30, _⟩ => ⟨S_, .i32⟩
  | .hbm, ⟨31, _⟩ => ⟨S2000000, .i32⟩
  | .hbm, ⟨32, _⟩ => ⟨S2000000, .i32⟩
  | .hbm, ⟨33, _⟩ => ⟨S2000000, .i32⟩
  | .hbm, ⟨34, _⟩ => ⟨S2000000x1, .i32⟩
  | .hbm, ⟨35, _⟩ => ⟨S2000000, .f32⟩
  | .hbm, ⟨36, _⟩ => ⟨S_, .i32⟩
  | .hbm, ⟨37, _⟩ => ⟨S2000000, .i32⟩
  | .hbm, ⟨38, _⟩ => ⟨S2000000, .i1⟩
  | .hbm, ⟨39, _⟩ => ⟨S_, .i32⟩
  | .hbm, ⟨40, _⟩ => ⟨S2000000, .i32⟩
  | .hbm, ⟨41, _⟩ => ⟨S2000000, .i32⟩
  | .hbm, ⟨42, _⟩ => ⟨S2000000, .i32⟩
  | .hbm, ⟨43, _⟩ => ⟨S2000000x1, .i32⟩
  | .hbm, ⟨44, _⟩ => ⟨S2000000, .f32⟩
  | .hbm, ⟨45, _⟩ => ⟨S2000000, .f32⟩
  | .hbm, ⟨46, _⟩ => ⟨S2000000x1, .f32⟩
  | .hbm, ⟨47, _⟩ => ⟨S_, .f32⟩
  | .hbm, ⟨48, _⟩ => ⟨S150000x64, .f32⟩
  | .hbm, ⟨49, _⟩ => ⟨S150000x64, .f32⟩
  | .hbm, ⟨50, _⟩ => ⟨S_, .i32⟩
  | .hbm, ⟨51, _⟩ => ⟨S2000000, .i32⟩
  | .hbm, ⟨52, _⟩ => ⟨S2000000, .i1⟩
  | .hbm, ⟨53, _⟩ => ⟨S_, .i32⟩
  | .hbm, ⟨54, _⟩ => ⟨S2000000, .i32⟩
  | .hbm, ⟨55, _⟩ => ⟨S2000000, .i32⟩
  | .hbm, ⟨56, _⟩ => ⟨S2000000, .i32⟩
  | .hbm, ⟨57, _⟩ => ⟨S2000000x1, .i32⟩
  | .hbm, ⟨58, _⟩ => ⟨S2000000x64, .f32⟩
  | .hbm, ⟨59, _⟩ => ⟨S2000000x64, .f32⟩
  | .hbm, ⟨60, _⟩ => ⟨S_, .f32⟩
  | .hbm, ⟨61, _⟩ => ⟨S150000x64, .f32⟩
  | .hbm, ⟨62, _⟩ => ⟨S2000000x1, .i32⟩
  | .hbm, ⟨63, _⟩ => ⟨S150000x64, .f32⟩
  | .hbm, ⟨64, _⟩ => ⟨S150000x64, .f32⟩
  | .hbm, ⟨65, _⟩ => ⟨S_, .i32⟩
  | .hbm, ⟨66, _⟩ => ⟨S2000000, .i32⟩
  | .hbm, ⟨67, _⟩ => ⟨S2000000, .i1⟩
  | .hbm, ⟨68, _⟩ => ⟨S_, .i32⟩
  | .hbm, ⟨69, _⟩ => ⟨S2000000, .i32⟩
  | .hbm, ⟨70, _⟩ => ⟨S2000000, .i32⟩
  | .hbm, ⟨71, _⟩ => ⟨S2000000, .i32⟩
  | .hbm, ⟨72, _⟩ => ⟨S2000000x1, .i32⟩
  | .hbm, ⟨73, _⟩ => ⟨S2000000x64, .f32⟩
  | .hbm, ⟨74, _⟩ => ⟨S2000000x64, .f32⟩
  | .hbm, ⟨75, _⟩ => ⟨S_, .f32⟩
  | .hbm, ⟨76, _⟩ => ⟨S150000x64, .f32⟩
  | .hbm, ⟨77, _⟩ => ⟨S2000000x1, .i32⟩
  | .hbm, ⟨78, _⟩ => ⟨S150000x64, .f32⟩
  | .hbm, ⟨79, _⟩ => ⟨S150000x64, .f32⟩
  | .hbm, ⟨80, _⟩ => ⟨S_, .i32⟩
  | .hbm, ⟨81, _⟩ => ⟨S2000000, .i32⟩
  | .hbm, ⟨82, _⟩ => ⟨S2000000, .i1⟩
  | .hbm, ⟨83, _⟩ => ⟨S_, .i32⟩
  | .hbm, ⟨84, _⟩ => ⟨S2000000, .i32⟩
  | .hbm, ⟨85, _⟩ => ⟨S2000000, .i32⟩
  | .hbm, ⟨86, _⟩ => ⟨S2000000, .i32⟩
  | .hbm, ⟨87, _⟩ => ⟨S2000000x1, .i32⟩
  | .hbm, ⟨88, _⟩ => ⟨S2000000x64, .f32⟩
  | .hbm, ⟨89, _⟩ => ⟨S2000000x64, .f32⟩
  | .hbm, ⟨90, _⟩ => ⟨S_, .f32⟩
  | .hbm, ⟨91, _⟩ => ⟨S150000x64, .f32⟩
  | .hbm, ⟨92, _⟩ => ⟨S2000000x1, .i32⟩
  | .hbm, ⟨93, _⟩ => ⟨S150000x64, .f32⟩
  | .hbm, ⟨94, _⟩ => ⟨S150000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x1, .f32⟩
  | .local _ .vmem, ⟨9, _⟩ => ⟨S10000x1, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x1, .f32⟩
  | .local _ .vmem, ⟨21, _⟩ => ⟨S10000x1, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x1, .f32⟩
  | .local _ .vmem, ⟨33, _⟩ => ⟨S10000x1, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | _, _ => ⟨S2x2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_c_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_12 : Ref sig .tc := ⟨.hbm, 65, rfl⟩
abbrev main_v45 : Ref sig .tc := ⟨.hbm, 66, rfl⟩
abbrev main_v46 : Ref sig .tc := ⟨.hbm, 67, rfl⟩
abbrev main_c_13 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_14 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_15 : Ref sig .tc := ⟨.hbm, 80, rfl⟩
abbrev main_v57 : Ref sig .tc := ⟨.hbm, 81, rfl⟩
abbrev main_v58 : Ref sig .tc := ⟨.hbm, 82, rfl⟩
abbrev main_c_16 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_17 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![15], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![15], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  bcast_S_S150000x64 : S_.BroadcastsInDim S150000x64 (![] : Fin 0 → Fin S150000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  scatter_S150000_S2000000x1_S2000000_n_0_0_1_wf : ScatterDims.WF S150000 S2000000x1 S2000000 [] [0] [0] 1
  gather_S150000_S2000000x1_S2000000_n_0_n_n_0_1_1_wf : GatherDims.WF S150000 S2000000x1 S2000000 [] [0] [] [0] [] 1 ![1]
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S150000x64.size a
  hwx0_0 : ∀ i : grid0.Coords, EltTy.bits .f32 = 32 ∨ (Rect.block (s := S150000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S150000x64.size a
  hwx0_1 : ∀ i : grid0.Coords, EltTy.bits .f32 = 32 ∨ (Rect.block (s := S150000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S150000x64.size a
  hwx0_2 : ∀ i : grid0.Coords, EltTy.bits .f32 = 32 ∨ (Rect.block (s := S150000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S2000000x64.size a
  hwx1_0 : ∀ i : grid1.Coords, EltTy.bits .f32 = 32 ∨ (Rect.block (s := S2000000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S2000000x1.size a
  hwx1_1 : ∀ i : grid1.Coords, EltTy.bits .f32 = 32 ∨ (Rect.block (s := S2000000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S2000000x64.size a
  hwx1_2 : ∀ i : grid1.Coords, EltTy.bits .f32 = 32 ∨ (Rect.block (s := S2000000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S150000x64.size a
  hwx2_0 : ∀ i : grid2.Coords, EltTy.bits .f32 = 32 ∨ (Rect.block (s := S150000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S150000x64.size a
  hwx2_1 : ∀ i : grid2.Coords, EltTy.bits .f32 = 32 ∨ (Rect.block (s := S150000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S150000x64.size a
  hwx2_2 : ∀ i : grid2.Coords, EltTy.bits .f32 = 32 ∨ (Rect.block (s := S150000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S2000000x64.size a
  hwx3_0 : ∀ i : grid3.Coords, EltTy.bits .f32 = 32 ∨ (Rect.block (s := S2000000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S2000000x1.size a
  hwx3_1 : ∀ i : grid3.Coords, EltTy.bits .f32 = 32 ∨ (Rect.block (s := S2000000x1) S10000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S2000000x64.size a
  hwx3_2 : ∀ i : grid3.Coords, EltTy.bits .f32 = 32 ∨ (Rect.block (s := S2000000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S150000x64.size a
  hwx4_0 : ∀ i : grid4.Coords, EltTy.bits .f32 = 32 ∨ (Rect.block (s := S150000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S150000x64.size a
  hwx4_1 : ∀ i : grid4.Coords, EltTy.bits .f32 = 32 ∨ (Rect.block (s := S150000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S150000x64.size a
  hwx4_2 : ∀ i : grid4.Coords, EltTy.bits .f32 = 32 ∨ (Rect.block (s := S150000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S2000000x64.size a
  hwx5_0 : ∀ i : grid5.Coords, EltTy.bits .f32 = 32 ∨ (Rect.block (s := S2000000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S2000000x1.size a
  hwx5_1 : ∀ i : grid5.Coords, EltTy.bits .f32 = 32 ∨ (Rect.block (s := S2000000x1) S10000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S2000000x64.size a
  hwx5_2 : ∀ i : grid5.Coords, EltTy.bits .f32 = 32 ∨ (Rect.block (s := S2000000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S150000x64.size a
  hwx6_0 : ∀ i : grid6.Coords, EltTy.bits .f32 = 32 ∨ (Rect.block (s := S150000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S150000x64.size a
  hwx6_1 : ∀ i : grid6.Coords, EltTy.bits .f32 = 32 ∨ (Rect.block (s := S150000x64) S10000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S150000x64.size a
  hwx6_2 : ∀ i : grid6.Coords, EltTy.bits .f32 = 32 ∨ (Rect.block (s := S150000x64) S10000x64.size (cc6_transform_2 i) (hinb6_2 i)).WholeWords (EltTy.packing .f32)

variable [Facts₀]

def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S150000_S2000000x1_S2000000_n_0_n_n_0_1_1 : GatherDims S150000 S2000000x1 S2000000 where
  offsetDims := []
  collapsedSliceDims := [0]
  operandBatchingDims := []
  startIndicesBatchingDims := []
  startIndexMap := [0]
  indexVectorDim := 1
  sliceSizes := ![1]
  wf := gather_S150000_S2000000x1_S2000000_n_0_n_n_0_1_1_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf

abbrev win0_0 : Pipeline.Window sig grid0 :=
  Pipeline.Window.ofSpec (Memref.whole main_arg1) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v51) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v52) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v55) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v63) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v30) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v64) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v67) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v56) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v68) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where
  halias0_2 : Pipeline.Aliased win0 1 2
  halias2_2 : Pipeline.Aliased win2 1 2
  halias4_2 : Pipeline.Aliased win4 1 2
  halias6_2 : Pipeline.Aliased win6 1 2

variable [Facts]
-- ==== ReferenceIdeal.lean ====
abbrev S2x2000000 : Shape := ⟨2, ![2, 2000000]⟩
abbrev S150000x64 : Shape := ⟨2, ![150000, 64]⟩
abbrev S1x2000000 : Shape := ⟨2, ![1, 2000000]⟩
abbrev S2000000 : Shape := ⟨1, ![2000000]⟩
abbrev S_ : Shape := ⟨0, ![]⟩
abbrev S150000 : Shape := ⟨1, ![150000]⟩
abbrev S2000000x1 : Shape := ⟨2, ![2000000, 1]⟩
abbrev S2000000x64 : Shape := ⟨2, ![2000000, 64]⟩

abbrev nBuf : Space → Nat
  | .hbm => 107
  | .vmem => 0
  | .smem => 0
  | _ => 0

abbrev bufTy : (tb : Table) → Fin (tcTables nBuf tb) → BufTy
  | .hbm, ⟨0, _⟩ => ⟨S2x2000000, .i32⟩
  | .hbm, ⟨1, _⟩ => ⟨S150000x64, .f32⟩
  | .hbm, ⟨2, _⟩ => ⟨S1x2000000, .i32⟩
  | .hbm, ⟨3, _⟩ => ⟨S2000000, .i32⟩
  | .hbm, ⟨4, _⟩ => ⟨S1x2000000, .i32⟩
  | .hbm, ⟨5, _⟩ => ⟨S2000000, .i32⟩
  | .hbm, ⟨6, _⟩ => ⟨S_, .f32⟩
  | .hbm, ⟨7, _⟩ => ⟨S2000000, .f32⟩
  | .hbm, ⟨8, _⟩ => ⟨S_, .f32⟩
  | .hbm, ⟨9, _⟩ => ⟨S150000, .f32⟩
  | .hbm, ⟨10, _⟩ => ⟨S2000000x1, .i32⟩
  | .hbm, ⟨11, _⟩ => ⟨S150000, .f32⟩
  | .hbm, ⟨12, _⟩ => ⟨S_, .f32⟩
  | .hbm, ⟨13, _⟩ => ⟨S150000, .f32⟩
  | .hbm, ⟨14, _⟩ => ⟨S150000, .i1⟩
  | .hbm, ⟨15, _⟩ => ⟨S_, .f32⟩
  | .hbm, ⟨16, _⟩ => ⟨S150000, .f32⟩
  | .hbm, ⟨17, _⟩ => ⟨S150000, .i1⟩
  | .hbm, ⟨18, _⟩ => ⟨S_, .f32⟩
  | .hbm, ⟨19, _⟩ => ⟨S_, .f32⟩
  | .hbm, ⟨20, _⟩ => ⟨S150000, .f32⟩
  | .hbm, ⟨21, _⟩ => ⟨S150000, .f32⟩
  | .hbm, ⟨22, _⟩ => ⟨S150000, .f32⟩
  | .hbm, ⟨23, _⟩ => ⟨S_, .f32⟩
  | .hbm, ⟨24, _⟩ => ⟨S_, .f32⟩
  | .hbm, ⟨25, _⟩ => ⟨S150000, .f32⟩
  | .hbm, ⟨26, _⟩ => ⟨S150000, .f32⟩
  | .hbm, ⟨27, _⟩ => ⟨S_, .i32⟩
  | .hbm, ⟨28, _⟩ => ⟨S2000000, .i32⟩
  | .hbm, ⟨29, _⟩ => ⟨S2000000, .i1⟩
  | .hbm, ⟨30, _⟩ => ⟨S_, .i32⟩
  | .hbm, ⟨31, _⟩ => ⟨S2000000, .i32⟩
  | .hbm, ⟨32, _⟩ => ⟨S2000000, .i32⟩
  | .hbm, ⟨33, _⟩ => ⟨S2000000, .i32⟩
  | .hbm, ⟨34, _⟩ => ⟨S2000000x1, .i32⟩
  | .hbm, ⟨35, _⟩ => ⟨S2000000, .f32⟩
  | .hbm, ⟨36, _⟩ => ⟨S_, .i32⟩
  | .hbm, ⟨37, _⟩ => ⟨S2000000, .i32⟩
  | .hbm, ⟨38, _⟩ => ⟨S2000000, .i1⟩
  | .hbm, ⟨39, _⟩ => ⟨S_, .i32⟩
  | .hbm, ⟨40, _⟩ => ⟨S2000000, .i32⟩
  | .hbm, ⟨41, _⟩ => ⟨S2000000, .i32⟩
  | .hbm, ⟨42, _⟩ => ⟨S2000000, .i32⟩
  | .hbm, ⟨43, _⟩ => ⟨S2000000x1, .i32⟩
  | .hbm, ⟨44, _⟩ => ⟨S2000000, .f32⟩
  | .hbm, ⟨45, _⟩ => ⟨S2000000, .f32⟩
  | .hbm, ⟨46, _⟩ => ⟨S2000000x1, .f32⟩
  | .hbm, ⟨47, _⟩ => ⟨S_, .f32⟩
  | .hbm, ⟨48, _⟩ => ⟨S150000x64, .f32⟩
  | .hbm, ⟨49, _⟩ => ⟨S150000x64, .f32⟩
  | .hbm, ⟨50, _⟩ => ⟨S_, .i32⟩
  | .hbm, ⟨51, _⟩ => ⟨S2000000, .i32⟩
  | .hbm, ⟨52, _⟩ => ⟨S2000000, .i1⟩
  | .hbm, ⟨53, _⟩ => ⟨S_, .i32⟩
  | .hbm, ⟨54, _⟩ => ⟨S2000000, .i32⟩
  | .hbm, ⟨55, _⟩ => ⟨S2000000, .i32⟩
  | .hbm, ⟨56, _⟩ => ⟨S2000000, .i32⟩
  | .hbm, ⟨57, _⟩ => ⟨S2000000x1, .i32⟩
  | .hbm, ⟨58, _⟩ => ⟨S2000000x64, .f32⟩
  | .hbm, ⟨59, _⟩ => ⟨S2000000x64, .f32⟩
  | .hbm, ⟨60, _⟩ => ⟨S2000000x64, .f32⟩
  | .hbm, ⟨61, _⟩ => ⟨S_, .f32⟩
  | .hbm, ⟨62, _⟩ => ⟨S150000x64, .f32⟩
  | .hbm, ⟨63, _⟩ => ⟨S2000000x1, .i32⟩
  | .hbm, ⟨64, _⟩ => ⟨S150000x64, .f32⟩
  | .hbm, ⟨65, _⟩ => ⟨S_, .f32⟩
  | .hbm, ⟨66, _⟩ => ⟨S150000x64, .f32⟩
  | .hbm, ⟨67, _⟩ => ⟨S150000x64, .f32⟩
  | .hbm, ⟨68, _⟩ => ⟨S150000x64, .f32⟩
  | .hbm, ⟨69, _⟩ => ⟨S_, .i32⟩
  | .hbm, ⟨70, _⟩ => ⟨S2000000, .i32⟩
  | .hbm, ⟨71, _⟩ => ⟨S2000000, .i1⟩
  | .hbm, ⟨72, _⟩ => ⟨S_, .i32⟩
  | .hbm, ⟨73, _⟩ => ⟨S2000000, .i32⟩
  | .hbm, ⟨74, _⟩ => ⟨S2000000, .i32⟩
  | .hbm, ⟨75, _⟩ => ⟨S2000000, .i32⟩
  | .hbm, ⟨76, _⟩ => ⟨S2000000x1, .i32⟩
  | .hbm, ⟨77, _⟩ => ⟨S2000000x64, .f32⟩
  | .hbm, ⟨78, _⟩ => ⟨S2000000x64, .f32⟩
  | .hbm, ⟨79, _⟩ => ⟨S2000000x64, .f32⟩
  | .hbm, ⟨80, _⟩ => ⟨S_, .f32⟩
  | .hbm, ⟨81, _⟩ => ⟨S150000x64, .f32⟩
  | .hbm, ⟨82, _⟩ => ⟨S2000000x1, .i32⟩
  | .hbm, ⟨83, _⟩ => ⟨S150000x64, .f32⟩
  | .hbm, ⟨84, _⟩ => ⟨S_, .f32⟩
  | .hbm, ⟨85, _⟩ => ⟨S150000x64, .f32⟩
  | .hbm, ⟨86, _⟩ => ⟨S150000x64, .f32⟩
  | .hbm, ⟨87, _⟩ => ⟨S150000x64, .f32⟩
  | .hbm, ⟨88, _⟩ => ⟨S_, .i32⟩
  | .hbm, ⟨89, _⟩ => ⟨S2000000, .i32⟩
  | .hbm, ⟨90, _⟩ => ⟨S2000000, .i1⟩
  | .hbm, ⟨91, _⟩ => ⟨S_, .i32⟩
  | .hbm, ⟨92, _⟩ => ⟨S2000000, .i32⟩
  | .hbm, ⟨93, _⟩ => ⟨S2000000, .i32⟩
  | .hbm, ⟨94, _⟩ => ⟨S2000000, .i32⟩
  | .hbm, ⟨95, _⟩ => ⟨S2000000x1, .i32⟩
  | .hbm, ⟨96, _⟩ => ⟨S2000000x64, .f32⟩
  | .hbm, ⟨97, _⟩ => ⟨S2000000x64, .f32⟩
  | .hbm, ⟨98, _⟩ => ⟨S2000000x64, .f32⟩
  | .hbm, ⟨99, _⟩ => ⟨S_, .f32⟩
  | .hbm, ⟨100, _⟩ => ⟨S150000x64, .f32⟩
  | .hbm, ⟨101, _⟩ => ⟨S2000000x1, .i32⟩
  | .hbm, ⟨102, _⟩ => ⟨S150000x64, .f32⟩
  | .hbm, ⟨103, _⟩ => ⟨S_, .f32⟩
  | .hbm, ⟨104, _⟩ => ⟨S150000x64, .f32⟩
  | .hbm, ⟨105, _⟩ => ⟨S150000x64, .f32⟩
  | .hbm, ⟨106, _⟩ => ⟨S150000x64, .f32⟩
  | _, _ => ⟨S2x2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_c_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_13 : Ref sig .tc := ⟨.hbm, 69, rfl⟩
abbrev main_v48 : Ref sig .tc := ⟨.hbm, 70, rfl⟩
abbrev main_v49 : Ref sig .tc := ⟨.hbm, 71, rfl⟩
abbrev main_c_14 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_15 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_16 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_17 : Ref sig .tc := ⟨.hbm, 88, rfl⟩
abbrev main_v63 : Ref sig .tc := ⟨.hbm, 89, rfl⟩
abbrev main_v64 : Ref sig .tc := ⟨.hbm, 90, rfl⟩
abbrev main_c_18 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_19 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_20 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  bcast_S_S150000x64 : S_.BroadcastsInDim S150000x64 (![] : Fin 0 → Fin S150000x64.rank)
  bcast_S2000000x1_S2000000x64_0_1 : S2000000x1.BroadcastsInDim S2000000x64 (![0, 1] : Fin 2 → Fin S2000000x64.rank)
  scatter_S150000_S2000000x1_S2000000_n_0_0_1_wf : ScatterDims.WF S150000 S2000000x1 S2000000 [] [0] [0] 1
  gather_S150000_S2000000x1_S2000000_n_0_n_n_0_1_1_wf : GatherDims.WF S150000 S2000000x1 S2000000 [] [0] [] [0] [] 1 ![1]
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1

variable [Facts₀]

def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S150000_S2000000x1_S2000000_n_0_n_n_0_1_1 : GatherDims S150000 S2000000x1 S2000000 where
  offsetDims := []
  collapsedSliceDims := [0]
  operandBatchingDims := []
  startIndicesBatchingDims := []
  startIndexMap := [0]
  indexVectorDim := 1
  sliceSizes := ![1]
  wf := gather_S150000_S2000000x1_S2000000_n_0_n_n_0_1_1_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf

class Facts : Prop extends Facts₀ where

variable [Facts]
-- ==== Proof.KernelRun.lean ====
/-
  The idealized program's run, with the result named: every weakly fair execution ends, nothing faulting, with the
  returned array holding what the last launch's write-backs leave in it and the two arguments as launched. The run is
  the chain of the program's eighteen segments (host stretches and launches) from the launch memory; the last thread
  state holds every buffer at the last boundary's contents, and the final memory is read against it.
-/
import proofs.«169158_j37091337568955_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run to its end: the returned array at the last boundary's contents, the arguments unchanged. -/
theorem run_end : θ_run defs (onTc (τ := τ) (main (F := F))) ⟨m, fun _ => 0, ρ⟩ (fun r => ∀ c : Dev nD,
      r.2.mem ((c.tc : Thread nD τ).loc main_v68) = W18 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v68 (by decide)),
       (h c _ (mem_uc main_arg0 (by decide))).trans (W18_main_arg0 m ρ c),
       (h c _ (mem_uc main_arg1 (by decide))).trans (W18_main_arg1 m ρ c)⟩)

end Cert.KernelIdeal.RunValue

end
-- ==== Proof.Stages.lean ====
/-
  The two stages the propagation is built from, as functions of whole arrays, entry by entry, at any float
  instance: one layer's share added to the running output, and an edge's message scaled by the edge's weight.
-/
import Idealize.ShloMosaic.Lib.Pipeline.Value
import Idealize.ShloMosaic.Lib.ValueIdx

noncomputable section

namespace Cert.Stages

open Idealize.ShloMosaic Idealize.ShloMosaic.ValueIdx

variable {F : FTy → Type} [FloatOps F]

/-- The running output after one more layer: entry by entry, the old output plus a quarter of the layer. -/
def accum {ι : Type} (x o : ι → F .f32) : ι → F .f32 :=
  fun i => FloatOps.addf (o i) (FloatOps.mulf (x i) (Scalar.ofBits .f32 0x3E800000#32))

/-- The row of a message entry, as an index into the one-column array of edge weights. -/
def rowOf {a b : ℕ} (i : (⟨2, ![a, b]⟩ : Shape).Idx) : (⟨2, ![a, 1]⟩ : Shape).Idx := ix2 (i 0) (0 : Fin 1)

theorem rowOf_ix2 {a b : ℕ} (p : Fin a) (q : Fin b) : rowOf (ix2 p q) = ix2 p (0 : Fin 1) := rfl

/-- The messages: entry (e, d) of the gathered rows times edge e's weight. -/
def scaleRows {a b : ℕ} (x : (⟨2, ![a, b]⟩ : Shape).Idx → F .f32) (n : (⟨2, ![a, 1]⟩ : Shape).Idx → F .f32) :
    (⟨2, ![a, b]⟩ : Shape).Idx → F .f32 :=
  fun i => FloatOps.mulf (x i) (n (rowOf i))

end Cert.Stages

end
-- ==== Proof.Spec.lean ====
/-
  The propagation as one function of the two argument arrays, at any float instance.
  From the edge list: the source and target node of every edge, every node's out-degree as a float (a sum of ones
  scattered to the sources), its inverse square root where the degree is positive and 0 elsewhere, and an edge's
  weight, the product of that number at its two ends. A layer sends every node's row along its edges, each message
  scaled by the edge's weight, and sums the messages arriving at each node. The result is the embeddings' quarter plus
  a quarter of each of three successive layers, added in that order onto an array of zeros.
-/
import proofs.«169158_j37091337568955_2_alg».proof.Proof.Gen.ReferenceIdeal
import proofs.«169158_j37091337568955_2_alg».proof.Proof.Stages

noncomputable section

namespace Cert.Spec

open Cert.ReferenceIdeal Cert.ReferenceIdeal.Gen Idealize.ShloMosaic

variable {F : FTy → Type} [FloatOps F]

/-- The edges' source nodes: row 0 of the edge list. -/
def src (ei : (⟨S2x2000000, .i32⟩ : BufTy).Contents (Elt F)) : (⟨S2000000, .i32⟩ : BufTy).Contents (Elt F) :=
  shapeCast _ (extractStridedSlice S1x2000000 ![0, 0] ei slices_S2x2000000_S1x2000000_0_0) shapeCasts_S1x2000000_S2000000

/-- The edges' target nodes: row 1 of the edge list. -/
def tgt (ei : (⟨S2x2000000, .i32⟩ : BufTy).Contents (Elt F)) : (⟨S2000000, .i32⟩ : BufTy).Contents (Elt F) :=
  shapeCast _ (extractStridedSlice S1x2000000 ![1, 0] ei slices_S2x2000000_S1x2000000_1_0) shapeCasts_S1x2000000_S2000000

/-- A node list as a one-column index array. -/
def asColumn (r : (⟨S2000000, .i32⟩ : BufTy).Contents (Elt F)) : (⟨S2000000x1, .i32⟩ : BufTy).Contents (Elt F) :=
  broadcastInDim S2000000x1 ![0] bcast_S2000000_S2000000x1_0 r

/-- A node list with negative entries counted from the end, as a one-column index array. -/
def wrapped (r : (⟨S2000000, .i32⟩ : BufTy).Contents (Elt F)) : (⟨S2000000x1, .i32⟩ : BufTy).Contents (Elt F) :=
  asColumn (F := F) (select
    (cmpi .slt r (broadcastInDim S2000000 ![] bcast_S_S2000000 (constantI S_ 32 0#32)))
    (addi r (broadcastInDim S2000000 ![] bcast_S_S2000000 (constantI S_ 32 150000#32)))
    r)

/-- Zero at every node. -/
def zeroNodes : (⟨S150000, .f32⟩ : BufTy).Contents (Elt F) :=
  broadcastInDim S150000 ![] bcast_S_S150000 (constant (F := F) S_ .f32 0x00000000#32)

/-- Every node's out-degree: ones summed at the edges' sources. -/
def degree (ei : (⟨S2x2000000, .i32⟩ : BufTy).Contents (Elt F)) : (⟨S150000, .f32⟩ : BufTy).Contents (Elt F) :=
  Host.scatterAdd scatter_S150000_S2000000x1_S2000000_n_0_0_1 (zeroNodes (F := F)) (asColumn (F := F) (src (F := F) ei))
    (broadcastInDim S2000000 ![] bcast_S_S2000000 (constant (F := F) S_ .f32 0x3F800000#32))

/-- The inverse square root of the degree where it is positive, 0 elsewhere. -/
def invSqrtDegree (ei : (⟨S2x2000000, .i32⟩ : BufTy).Contents (Elt F)) : (⟨S150000, .f32⟩ : BufTy).Contents (Elt F) :=
  select (cmpf (F := F) .ogt (degree (F := F) ei) (zeroNodes (F := F)))
    (Host.rsqrt (select (cmpf (F := F) .ogt (degree (F := F) ei) (zeroNodes (F := F))) (degree (F := F) ei)
      (broadcastInDim S150000 ![] bcast_S_S150000 (id (constant (F := F) S_ .f32 0x3F800000#32)))))
    (broadcastInDim S150000 ![] bcast_S_S150000 (id (constant (F := F) S_ .f32 0x00000000#32)))

/-- An edge's weight, as a one-column array: the product of the two ends' inverse square root degrees. -/
def weight (ei : (⟨S2x2000000, .i32⟩ : BufTy).Contents (Elt F)) : (⟨S2000000x1, .f32⟩ : BufTy).Contents (Elt F) :=
  broadcastInDim S2000000x1 ![0] bcast_S2000000_S2000000x1_0
    (mulf (Host.gather gather_S150000_S2000000x1_S2000000_n_0_n_n_0_1_1 (invSqrtDegree (F := F) ei) (wrapped (F := F) (src (F := F) ei)))
      (Host.gather gather_S150000_S2000000x1_S2000000_n_0_n_n_0_1_1 (invSqrtDegree (F := F) ei) (wrapped (F := F) (tgt (F := F) ei))))

/-- Zero at every entry of a node-by-feature array. -/
def zeroRows : (⟨S150000x64, .f32⟩ : BufTy).Contents (Elt F) :=
  broadcastInDim S150000x64 ![] bcast_S_S150000x64 (constant (F := F) S_ .f32 0x00000000#32)

/-- The rows of the sources of the edges, one row per edge. -/
def gathered (ei : (⟨S2x2000000, .i32⟩ : BufTy).Contents (Elt F)) (h : (⟨S150000x64, .f32⟩ : BufTy).Contents (Elt F)) :
    (⟨S2000000x64, .f32⟩ : BufTy).Contents (Elt F) :=
  Host.gather gather_S150000x64_S2000000x1_S2000000x64_1_0_n_n_0_1_164 h (wrapped (F := F) (src (F := F) ei))

/-- The messages summed at the edges' targets. -/
def summed (ei : (⟨S2x2000000, .i32⟩ : BufTy).Contents (Elt F)) (u : (⟨S2000000x64, .f32⟩ : BufTy).Contents (Elt F)) :
    (⟨S150000x64, .f32⟩ : BufTy).Contents (Elt F) :=
  Host.scatterAdd scatter_S150000x64_S2000000x1_S2000000x64_1_0_0_1 (zeroRows (F := F)) (asColumn (F := F) (tgt (F := F) ei)) u

/-- One layer: gather along the edges, scale by the weights, sum at the targets. -/
def layer (ei : (⟨S2x2000000, .i32⟩ : BufTy).Contents (Elt F)) (h : (⟨S150000x64, .f32⟩ : BufTy).Contents (Elt F)) :
    (⟨S150000x64, .f32⟩ : BufTy).Contents (Elt F) :=
  summed (F := F) ei (Cert.Stages.scaleRows (gathered (F := F) ei h) (weight (F := F) ei))

/-- The result: a quarter of the embeddings and of each of three layers, added in order onto zeros. -/
def result (ei : (⟨S2x2000000, .i32⟩ : BufTy).Contents (Elt F)) (emb : (⟨S150000x64, .f32⟩ : BufTy).Contents (Elt F)) :
    (⟨S150000x64, .f32⟩ : BufTy).Contents (Elt F) :=
  Cert.Stages.accum (layer (F := F) ei (layer (F := F) ei (layer (F := F) ei emb)))
    (Cert.Stages.accum (layer (F := F) ei (layer (F := F) ei emb))
      (Cert.Stages.accum (layer (F := F) ei emb) (Cert.Stages.accum emb (zeroRows (F := F)))))

end Cert.Spec

end
-- ==== Proof.ChainA.lean ====
/-
  What the buffers hold when the first launch is entered, as functions of the two arguments: the host operations before
  it compute the edges' sources and targets, the edges' weights and an array of zeros, and leave the embeddings alone.
-/
import proofs.«169158_j37091337568955_2_alg».proof.Proof.Gen.KernelIdeal.Frame
import proofs.«169158_j37091337568955_2_alg».proof.Proof.Spec
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The edge list and the embeddings as launched. -/
abbrev edges (c : Dev nD) := m ((c : Thread nD τ).loc main_arg0)
abbrev embeddings (c : Dev nD) := m ((c : Thread nD τ).loc main_arg1)

theorem src5 (c : Dev nD) : W5 m ρ c (Proc.devRef .tc main_v1) = Cert.Spec.src (edges m c) := by
  show StableHlo.after hostOps0_4 (StableHlo.after hostOps0_3 (StableHlo.after hostOps0_2 (StableHlo.after hostOps0_1 (StableHlo.after hostOps0 (W0 m ρ c))))) (Proc.devRef .tc main_v1) = _
  simp only [hostOps0_4, hostOps0_3, hostOps0_2, hostOps0_1, hostOps0]
  after_results_simp
  rfl

theorem tgt5 (c : Dev nD) : W5 m ρ c (Proc.devRef .tc main_v3) = Cert.Spec.tgt (edges m c) := by
  show StableHlo.after hostOps0_4 (StableHlo.after hostOps0_3 (StableHlo.after hostOps0_2 (StableHlo.after hostOps0_1 (StableHlo.after hostOps0 (W0 m ρ c))))) (Proc.devRef .tc main_v3) = _
  simp only [hostOps0_4, hostOps0_3, hostOps0_2, hostOps0_1, hostOps0]
  after_results_simp
  rfl

theorem weight5 (c : Dev nD) : W5 m ρ c (Proc.devRef .tc main_v30) = Cert.Spec.weight (edges m c) := by
  show StableHlo.after hostOps0_4 (StableHlo.after hostOps0_3 (StableHlo.after hostOps0_2 (StableHlo.after hostOps0_1 (StableHlo.after hostOps0 (W0 m ρ c))))) (Proc.devRef .tc main_v30) = _
  simp only [hostOps0_4, hostOps0_3, hostOps0_2, hostOps0_1, hostOps0]
  after_results_simp
  rfl

theorem zero5 (c : Dev nD) : W5 m ρ c (Proc.devRef .tc main_v31) = Cert.Spec.zeroRows := by
  show StableHlo.after hostOps0_4 (StableHlo.after hostOps0_3 (StableHlo.after hostOps0_2 (StableHlo.after hostOps0_1 (StableHlo.after hostOps0 (W0 m ρ c))))) (Proc.devRef .tc main_v31) = _
  simp only [hostOps0_4, hostOps0_3, hostOps0_2, hostOps0_1, hostOps0]
  after_results_simp
  rfl

theorem emb5 (c : Dev nD) : W5 m ρ c (Proc.devRef .tc main_arg1) = embeddings m c := by
  show StableHlo.after hostOps0_4 (StableHlo.after hostOps0_3 (StableHlo.after hostOps0_2 (StableHlo.after hostOps0_1 (StableHlo.after hostOps0 (W0 m ρ c))))) (Proc.devRef .tc main_arg1) = _
  simp only [hostOps0_4, hostOps0_3, hostOps0_2, hostOps0_1, hostOps0]
  after_results_simp

end Cert.KernelIdeal.Chain

end
-- ==== Proof.Accum0.lean ====
/-
  The first launch: fifteen blocks of ten thousand rows each; block t of the output is the zero array's block t plus
  a quarter of the embeddings' block t, so the whole output array is that function of the whole input arrays.
-/
import proofs.«169158_j37091337568955_2_alg».proof.Proof.Gen.KernelIdeal.Frame
import proofs.«169158_j37091337568955_2_alg».proof.Proof.Stages
import Idealize.ShloMosaic.Lib.Pipeline.Value

noncomputable section

namespace Cert.KernelIdeal.Accum0

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The body's stored value, entry by entry: the second operand's entry plus a quarter of the first's. -/
theorem payload (o x : Vec F S10000x64 .f32) :
    k0_pay1 o x = fun j => FloatOps.addf (o j) (FloatOps.mulf (x j) (Scalar.ofBits .f32 0x3E800000#32)) := by
  unfold k0_pay1
  rw [shapeCast_self]
  rfl

/-- All three windows move together: at point t each sits at block row t, block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the whole-array function. -/
theorem flushed_eq (c : Dev nD) (t : Fin cfg0.N) :
    (dat0 V c).flushed 2 t
      = ((cfg0.win 2).blk t).view.read (Elt F) (Cert.Stages.accum (V c main_arg1) (V c main_v31)) := by
  show (cfg0.win 2).cut (grid0.coords t) ((dat0 V c).after 2 t) = _
  rw [after0_2]
  unfold out0_2
  rw [View.canon_unit_zero origin]
  simp only [View.ld_unit_zero (S := S10000x64) origin]
  rw [payload]
  obtain ⟨e0, e1, e2, e3, e4, e5⟩ := idx_facts t
  funext j
  show FloatOps.addf (V c main_v31 (((cfg0.win 1).blk t).view.emb j)) (FloatOps.mulf (V c main_arg1 (((cfg0.win 0).blk t).view.emb j)) _)
    = FloatOps.addf (V c main_v31 (((cfg0.win 2).blk t).view.emb j)) (FloatOps.mulf (V c main_arg1 (((cfg0.win 2).blk t).view.emb j)) _)
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 64 + 1 * (j 1).val = win0_2.index t (1 : Fin 2) * 64 + 1 * (j 1).val; omega
  rw [h0, h1]

/-- An entry of the output array lies in point t's block iff each coordinate lies in the block's range. -/
theorem mem_blk (t : Fin cfg0.N) (i : S150000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Row r of the output is written by point r / 10000. -/
theorem cover (i : S150000x64.Idx) :
    ∃ t : Fin cfg0.N, (cfg0.win 2).flush t = true ∧ i ∈ ((cfg0.win 2).blk t).view.set := by
  have hi0 : (i 0).val < 150000 := (i 0).isLt
  have hi1 : (i 1).val < 64 := (i 1).isLt
  have hN : (i 0).val / 10000 < cfg0.N := by show _ < grid0.N; rw [N_0]; omega
  obtain ⟨e0, e1, e2, e3, e4, e5⟩ := idx_facts ⟨(i 0).val / 10000, hN⟩
  refine ⟨⟨(i 0).val / 10000, hN⟩, flush0_2 _, ?_⟩
  rw [mem_blk]
  intro a
  match a with
  | ⟨0, _⟩ =>
    show win0_2.index ⟨(i 0).val / 10000, hN⟩ (0 : Fin 2) * 10000 ≤ (i 0).val ∧ (i 0).val < win0_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hN⟩ (1 : Fin 2) * 64 ≤ (i 1).val ∧ (i 1).val < win0_2.index ⟨(i 0).val / 10000, hN⟩ (1 : Fin 2) * 64 + 64
    rw [e5]; omega

/-- The output array after the launch: the zero array plus a quarter of the embeddings, entry by entry. -/
theorem final (c : Dev nD) :
    (dat0 V c).arrAt 2 cfg0.N = Cert.Stages.accum (V c main_arg1) (V c main_v31) :=
  (dat0 V c).arrAt_eq_of_cover 2 _ (fun t _ => flushed_eq V c t) cover

end Cert.KernelIdeal.Accum0

end
-- ==== Proof.LibColumnBroadcast.lean ====
/-
  A column broadcast along its rows.
-/
import Idealize.ShloMosaic.Lib.Pipeline.Value
import Idealize.ShloMosaic.Lib.ValueIdx

namespace Cert.Lib

open Idealize.ShloMosaic Idealize.ShloMosaic.ValueIdx

/-- An `[a, 1]` column broadcast to `[a, b]` reads, at `(p, c)`, the column's entry in row `p`: the unit axis
    is read at `0` whatever the column `c`, the row axis is carried over. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.Scale1.lean ====
/-
  The first scaling launch: two hundred blocks of ten thousand edges each; block t of the output is block t of the gathered
  rows, each row times its edge's weight, so the whole output array is that function of the whole input arrays.
-/
import proofs.«169158_j37091337568955_2_alg».proof.Proof.Gen.KernelIdeal.Frame
import proofs.«169158_j37091337568955_2_alg».proof.Proof.Stages
import proofs.«169158_j37091337568955_2_alg».proof.Proof.LibColumnBroadcast
import Idealize.ShloMosaic.Lib.Pipeline.Value

noncomputable section

namespace Cert.KernelIdeal.Scale1

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The body's stored value, entry by entry: the row's entry times the row's weight. -/
theorem payload (x : Vec F S10000x64 .f32) (n : Vec F S10000x1 .f32) :
    k1_pay1 x n = Cert.Stages.scaleRows x n := by
  unfold k1_pay1
  rw [shapeCast_self, shapeCast_self]
  funext j
  obtain ⟨p, q, rfl⟩ : ∃ (p : Fin 10000) (q : Fin 64), j = ix2 p q := ⟨j 0, j 1, eq_ix2 j⟩
  show FloatOps.mulf (x (ix2 p q)) (broadcastTo S10000x64 n broadcasts_S10000x1_S10000x64 (ix2 p q)) = _
  rw [Cert.Lib.broadcastTo_a1_ab_apply]
  rfl

/-- All three windows move together: at point t each sits at block row t, block column 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array function. -/
theorem flushed_eq (c : Dev nD) (t : Fin cfg1.N) :
    (dat1 V c).flushed 2 t
      = ((cfg1.win 2).blk t).view.read (Elt F) (Cert.Stages.scaleRows (V c main_v39) (V c main_v30)) := by
  show (cfg1.win 2).cut (grid1.coords t) ((dat1 V c).after 2 t) = _
  rw [after1_2]
  unfold out1_2
  rw [View.canon_unit_zero origin]
  simp only [View.ld_unit_zero (S := S10000x64) origin, View.ld_unit_zero (S := S10000x1) origin]
  rw [payload]
  obtain ⟨e0, e1, e2, e3, e4, e5⟩ := idx_facts t
  funext j
  show FloatOps.mulf (V c main_v39 (((cfg1.win 0).blk t).view.emb j)) (V c main_v30 (((cfg1.win 1).blk t).view.emb (Cert.Stages.rowOf j)))
    = FloatOps.mulf (V c main_v39 (((cfg1.win 2).blk t).view.emb j)) (V c main_v30 (Cert.Stages.rowOf (((cfg1.win 2).blk t).view.emb j)))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (Cert.Stages.rowOf j) = Cert.Stages.rowOf (((cfg1.win 2).blk t).view.emb j) := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega
  rw [h0, h1]

/-- An entry of the output array lies in point t's block iff each coordinate lies in the block's range. -/
theorem mem_blk (t : Fin cfg1.N) (i : S2000000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v40).slice (win1_2.rect t)).set ↔ _
  rw [View.set_slice_whole, Rect.mem_set_unit]
  exact Iff.rfl

/-- Row r of the output is written by point r / 10000. -/
theorem cover (i : S2000000x64.Idx) :
    ∃ t : Fin cfg1.N, (cfg1.win 2).flush t = true ∧ i ∈ ((cfg1.win 2).blk t).view.set := by
  have hi0 : (i 0).val < 2000000 := (i 0).isLt
  have hi1 : (i 1).val < 64 := (i 1).isLt
  have hN : (i 0).val / 10000 < cfg1.N := by show _ < grid1.N; rw [N_1]; omega
  obtain ⟨e0, e1, e2, e3, e4, e5⟩ := idx_facts ⟨(i 0).val / 10000, hN⟩
  refine ⟨⟨(i 0).val / 10000, hN⟩, flush1_2 _, ?_⟩
  rw [mem_blk]
  intro a
  match a with
  | ⟨0, _⟩ =>
    show win1_2.index ⟨(i 0).val / 10000, hN⟩ (0 : Fin 2) * 10000 ≤ (i 0).val ∧ (i 0).val < win1_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hN⟩ (1 : Fin 2) * 64 ≤ (i 1).val ∧ (i 1).val < win1_2.index ⟨(i 0).val / 10000, hN⟩ (1 : Fin 2) * 64 + 64
    rw [e5]; omega

/-- The output array after the launch: each gathered row times its edge's weight. -/
theorem final (c : Dev nD) :
    (dat1 V c).arrAt 2 cfg1.N = Cert.Stages.scaleRows (V c main_v39) (V c main_v30) :=
  (dat1 V c).arrAt_eq_of_cover 2 _ (fun t _ => flushed_eq V c t) cover

end Cert.KernelIdeal.Scale1

end
-- ==== Proof.Accum2.lean ====
/-
  The second accumulating launch: fifteen blocks of ten thousand rows each; block t of the output is the running
  output's block t plus a quarter of the layer's block t, so the whole output array is that function of the whole
  input arrays.
-/
import proofs.«169158_j37091337568955_2_alg».proof.Proof.Gen.KernelIdeal.Frame
import proofs.«169158_j37091337568955_2_alg».proof.Proof.Stages
import Idealize.ShloMosaic.Lib.Pipeline.Value

noncomputable section

namespace Cert.KernelIdeal.Accum2

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The body's stored value, entry by entry: the second operand's entry plus a quarter of the first's. -/
theorem payload (o x : Vec F S10000x64 .f32) :
    k2_pay1 o x = fun j => FloatOps.addf (o j) (FloatOps.mulf (x j) (Scalar.ofBits .f32 0x3E800000#32)) := by
  unfold k2_pay1
  rw [shapeCast_self, shapeCast_self]
  rfl

/-- All three windows move together: at point t each sits at block row t, block column 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the whole-array function. -/
theorem flushed_eq (c : Dev nD) (t : Fin cfg2.N) :
    (dat2 V c).flushed 2 t
      = ((cfg2.win 2).blk t).view.read (Elt F) (Cert.Stages.accum (V c main_v43) (V c main_v32)) := by
  show (cfg2.win 2).cut (grid2.coords t) ((dat2 V c).after 2 t) = _
  rw [after2_2]
  unfold out2_2
  rw [View.canon_unit_zero origin]
  simp only [View.ld_unit_zero (S := S10000x64) origin]
  rw [payload]
  obtain ⟨e0, e1, e2, e3, e4, e5⟩ := idx_facts t
  funext j
  show FloatOps.addf (V c main_v32 (((cfg2.win 1).blk t).view.emb j)) (FloatOps.mulf (V c main_v43 (((cfg2.win 0).blk t).view.emb j)) _)
    = FloatOps.addf (V c main_v32 (((cfg2.win 2).blk t).view.emb j)) (FloatOps.mulf (V c main_v43 (((cfg2.win 2).blk t).view.emb j)) _)
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb j = ((cfg2.win 2).blk t).view.emb j := by
    funext a; apply Fin.ext
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 64 + 1 * (j 1).val = win2_2.index t (1 : Fin 2) * 64 + 1 * (j 1).val; omega
  rw [h0, h1]

/-- An entry of the output array lies in point t's block iff each coordinate lies in the block's range. -/
theorem mem_blk (t : Fin cfg2.N) (i : S150000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v44).slice (win2_2.rect t)).set ↔ _
  rw [View.set_slice_whole, Rect.mem_set_unit]
  exact Iff.rfl

/-- Row r of the output is written by point r / 10000. -/
theorem cover (i : S150000x64.Idx) :
    ∃ t : Fin cfg2.N, (cfg2.win 2).flush t = true ∧ i ∈ ((cfg2.win 2).blk t).view.set := by
  have hi0 : (i 0).val < 150000 := (i 0).isLt
  have hi1 : (i 1).val < 64 := (i 1).isLt
  have hN : (i 0).val / 10000 < cfg2.N := by show _ < grid2.N; rw [N_2]; omega
  obtain ⟨e0, e1, e2, e3, e4, e5⟩ := idx_facts ⟨(i 0).val / 10000, hN⟩
  refine ⟨⟨(i 0).val / 10000, hN⟩, flush2_2 _, ?_⟩
  rw [mem_blk]
  intro a
  match a with
  | ⟨0, _⟩ =>
    show win2_2.index ⟨(i 0).val / 10000, hN⟩ (0 : Fin 2) * 10000 ≤ (i 0).val ∧ (i 0).val < win2_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, hN⟩ (1 : Fin 2) * 64 ≤ (i 1).val ∧ (i 1).val < win2_2.index ⟨(i 0).val / 10000, hN⟩ (1 : Fin 2) * 64 + 64
    rw [e5]; omega

/-- The output array after the launch: the running output plus a quarter of the layer, entry by entry. -/
theorem final (c : Dev nD) :
    (dat2 V c).arrAt 2 cfg2.N = Cert.Stages.accum (V c main_v43) (V c main_v32) :=
  (dat2 V c).arrAt_eq_of_cover 2 _ (fun t _ => flushed_eq V c t) cover

end Cert.KernelIdeal.Accum2

end
-- ==== Proof.ChainB.lean ====
/-
  The buffers' contents at the boundaries after the first launch up to the second accumulation: the first layer's
  gather, its scaled messages, their sum at the targets, and the running output after the first layer.
-/
import proofs.«169158_j37091337568955_2_alg».proof.Proof.ChainA
import proofs.«169158_j37091337568955_2_alg».proof.Proof.Accum0
import proofs.«169158_j37091337568955_2_alg».proof.Proof.Scale1
import proofs.«169158_j37091337568955_2_alg».proof.Proof.Accum2
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The three layers and the running output after each, as functions of the arguments as launched. -/
abbrev lay1 (c : Dev nD) := Cert.Spec.layer (edges m c) (embeddings m c)
abbrev lay2 (c : Dev nD) := Cert.Spec.layer (edges m c) (lay1 m c)
abbrev lay3 (c : Dev nD) := Cert.Spec.layer (edges m c) (lay2 m c)
abbrev out0 (c : Dev nD) := Cert.Stages.accum (embeddings m c) (Cert.Spec.zeroRows (F := F))
abbrev out1 (c : Dev nD) := Cert.Stages.accum (lay1 m c) (out0 m c)
abbrev out2 (c : Dev nD) := Cert.Stages.accum (lay2 m c) (out1 m c)
abbrev out3 (c : Dev nD) := Cert.Stages.accum (lay3 m c) (out2 m c)

/-! ## After the first launch -/
theorem out06 (c : Dev nD) : W6 m ρ c (Proc.devRef .tc main_v32) = out0 m c := by
  refine (W6_arr m ρ c 2).trans ((Accum0.final (V5 m ρ) c).trans ?_)
  show Cert.Stages.accum (W5 m ρ c (Proc.devRef .tc main_arg1)) (W5 m ρ c (Proc.devRef .tc main_v31)) = _
  rw [emb5 m ρ c, zero5 m ρ c]
theorem src6 (c : Dev nD) : W6 m ρ c (Proc.devRef .tc main_v1) = Cert.Spec.src (edges m c) :=
  (W6_of_ne m ρ c main_v1 (by decide)).trans (src5 m ρ c)
theorem tgt6 (c : Dev nD) : W6 m ρ c (Proc.devRef .tc main_v3) = Cert.Spec.tgt (edges m c) :=
  (W6_of_ne m ρ c main_v3 (by decide)).trans (tgt5 m ρ c)
theorem weight6 (c : Dev nD) : W6 m ρ c (Proc.devRef .tc main_v30) = Cert.Spec.weight (edges m c) :=
  (W6_of_ne m ρ c main_v30 (by decide)).trans (weight5 m ρ c)
theorem emb6 (c : Dev nD) : W6 m ρ c (Proc.devRef .tc main_arg1) = embeddings m c :=
  (W6_arr m ρ c 0).trans ((((dat0 (V5 m ρ) c).arrAt_in 0 rfl _).trans (A_eq0 (V5 m ρ) c 0)).trans (emb5 m ρ c))

/-! ## After the first gather -/
theorem gath7 (c : Dev nD) : W7 m ρ c (Proc.devRef .tc main_v39) = Cert.Spec.gathered (edges m c) (embeddings m c) := by
  show StableHlo.after hostOps1 (W6 m ρ c) (Proc.devRef .tc main_v39) = _
  simp only [hostOps1]
  after_results
  rw [src6 m ρ c, emb6 m ρ c]
  rfl
theorem src7 (c : Dev nD) : W7 m ρ c (Proc.devRef .tc main_v1) = Cert.Spec.src (edges m c) := by
  refine Eq.trans ?_ (src6 m ρ c)
  show StableHlo.after hostOps1 (W6 m ρ c) (Proc.devRef .tc main_v1) = _
  simp only [hostOps1]
  after_results
theorem tgt7 (c : Dev nD) : W7 m ρ c (Proc.devRef .tc main_v3) = Cert.Spec.tgt (edges m c) := by
  refine Eq.trans ?_ (tgt6 m ρ c)
  show StableHlo.after hostOps1 (W6 m ρ c) (Proc.devRef .tc main_v3) = _
  simp only [hostOps1]
  after_results
theorem weight7 (c : Dev nD) : W7 m ρ c (Proc.devRef .tc main_v30) = Cert.Spec.weight (edges m c) := by
  refine Eq.trans ?_ (weight6 m ρ c)
  show StableHlo.after hostOps1 (W6 m ρ c) (Proc.devRef .tc main_v30) = _
  simp only [hostOps1]
  after_results
theorem out07 (c : Dev nD) : W7 m ρ c (Proc.devRef .tc main_v32) = out0 m c := by
  refine Eq.trans ?_ (out06 m ρ c)
  show StableHlo.after hostOps1 (W6 m ρ c) (Proc.devRef .tc main_v32) = _
  simp only [hostOps1]
  after_results

/-! ## After the first scaling launch -/
theorem msg8 (c : Dev nD) : W8 m ρ c (Proc.devRef .tc main_v40)
    = Cert.Stages.scaleRows (Cert.Spec.gathered (edges m c) (embeddings m c)) (Cert.Spec.weight (edges m c)) := by
  refine (W8_arr m ρ c 2).trans ((Scale1.final (V7 m ρ) c).trans ?_)
  show Cert.Stages.scaleRows (W7 m ρ c (Proc.devRef .tc main_v39)) (W7 m ρ c (Proc.devRef .tc main_v30)) = _
  rw [gath7 m ρ c, weight7 m ρ c]
theorem src8 (c : Dev nD) : W8 m ρ c (Proc.devRef .tc main_v1) = Cert.Spec.src (edges m c) :=
  (W8_of_ne m ρ c main_v1 (by decide)).trans (src7 m ρ c)
theorem tgt8 (c : Dev nD) : W8 m ρ c (Proc.devRef .tc main_v3) = Cert.Spec.tgt (edges m c) :=
  (W8_of_ne m ρ c main_v3 (by decide)).trans (tgt7 m ρ c)
theorem weight8 (c : Dev nD) : W8 m ρ c (Proc.devRef .tc main_v30) = Cert.Spec.weight (edges m c) :=
  (W8_arr m ρ c 1).trans ((((dat1 (V7 m ρ) c).arrAt_in 1 rfl _).trans (A_eq1 (V7 m ρ) c 1)).trans (weight7 m ρ c))
theorem out08 (c : Dev nD) : W8 m ρ c (Proc.devRef .tc main_v32) = out0 m c :=
  (W8_of_ne m ρ c main_v32 (by decide)).trans (out07 m ρ c)

/-! ## After the first sum at the targets -/
theorem lay9 (c : Dev nD) : W9 m ρ c (Proc.devRef .tc main_v43) = lay1 m c := by
  show StableHlo.after hostOps2 (W8 m ρ c) (Proc.devRef .tc main_v43) = _
  simp only [hostOps2]
  after_results
  rw [tgt8 m ρ c, msg8 m ρ c]
  rfl
theorem src9 (c : Dev nD) : W9 m ρ c (Proc.devRef .tc main_v1) = Cert.Spec.src (edges m c) := by
  refine Eq.trans ?_ (src8 m ρ c)
  show StableHlo.after hostOps2 (W8 m ρ c) (Proc.devRef .tc main_v1) = _
  simp only [hostOps2]
  after_results
theorem tgt9 (c : Dev nD) : W9 m ρ c (Proc.devRef .tc main_v3) = Cert.Spec.tgt (edges m c) := by
  refine Eq.trans ?_ (tgt8 m ρ c)
  show StableHlo.after hostOps2 (W8 m ρ c) (Proc.devRef .tc main_v3) = _
  simp only [hostOps2]
  after_results
theorem weight9 (c : Dev nD) : W9 m ρ c (Proc.devRef .tc main_v30) = Cert.Spec.weight (edges m c) := by
  refine Eq.trans ?_ (weight8 m ρ c)
  show StableHlo.after hostOps2 (W8 m ρ c) (Proc.devRef .tc main_v30) = _
  simp only [hostOps2]
  after_results
theorem out09 (c : Dev nD) : W9 m ρ c (Proc.devRef .tc main_v32) = out0 m c := by
  refine Eq.trans ?_ (out08 m ρ c)
  show StableHlo.after hostOps2 (W8 m ρ c) (Proc.devRef .tc main_v32) = _
  simp only [hostOps2]
  after_results

/-! ## After the second accumulation -/
theorem out10 (c : Dev nD) : W10 m ρ c (Proc.devRef .tc main_v44) = out1 m c := by
  refine (W10_arr m ρ c 2).trans ((Accum2.final (V9 m ρ) c).trans ?_)
  show Cert.Stages.accum (W9 m ρ c (Proc.devRef .tc main_v43)) (W9 m ρ c (Proc.devRef .tc main_v32)) = _
  rw [lay9 m ρ c, out09 m ρ c]
theorem src10 (c : Dev nD) : W10 m ρ c (Proc.devRef .tc main_v1) = Cert.Spec.src (edges m c) :=
  (W10_of_ne m ρ c main_v1 (by decide)).trans (src9 m ρ c)
theorem tgt10 (c : Dev nD) : W10 m ρ c (Proc.devRef .tc main_v3) = Cert.Spec.tgt (edges m c) :=
  (W10_of_ne m ρ c main_v3 (by decide)).trans (tgt9 m ρ c)
theorem weight10 (c : Dev nD) : W10 m ρ c (Proc.devRef .tc main_v30) = Cert.Spec.weight (edges m c) :=
  (W10_of_ne m ρ c main_v30 (by decide)).trans (weight9 m ρ c)
theorem lay10 (c : Dev nD) : W10 m ρ c (Proc.devRef .tc main_v43) = lay1 m c :=
  (W10_arr m ρ c 0).trans ((((dat2 (V9 m ρ) c).arrAt_in 0 rfl _).trans (A_eq2 (V9 m ρ) c 0)).trans (lay9 m ρ c))

end Cert.KernelIdeal.Chain

end
-- ==== Proof.Scale3.lean ====
/-
  The second scaling launch: two hundred blocks of ten thousand edges each; block t of the output is block t of the gathered
  rows, each row times its edge's weight, so the whole output array is that function of the whole input arrays.
-/
import proofs.«169158_j37091337568955_2_alg».proof.Proof.Gen.KernelIdeal.Frame
import proofs.«169158_j37091337568955_2_alg».proof.Proof.Stages
import proofs.«169158_j37091337568955_2_alg».proof.Proof.LibColumnBroadcast
import Idealize.ShloMosaic.Lib.Pipeline.Value

noncomputable section

namespace Cert.KernelIdeal.Scale3

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The body's stored value, entry by entry: the row's entry times the row's weight. -/
theorem payload (x : Vec F S10000x64 .f32) (n : Vec F S10000x1 .f32) :
    k3_pay1 x n = Cert.Stages.scaleRows x n := by
  unfold k3_pay1
  rw [shapeCast_self, shapeCast_self]
  funext j
  obtain ⟨p, q, rfl⟩ : ∃ (p : Fin 10000) (q : Fin 64), j = ix2 p q := ⟨j 0, j 1, eq_ix2 j⟩
  show FloatOps.mulf (x (ix2 p q)) (broadcastTo S10000x64 n broadcasts_S10000x1_S10000x64 (ix2 p q)) = _
  rw [Cert.Lib.broadcastTo_a1_ab_apply]
  rfl

/-- All three windows move together: at point t each sits at block row t, block column 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point t writes back is block t of the whole-array function. -/
theorem flushed_eq (c : Dev nD) (t : Fin cfg3.N) :
    (dat3 V c).flushed 2 t
      = ((cfg3.win 2).blk t).view.read (Elt F) (Cert.Stages.scaleRows (V c main_v51) (V c main_v30)) := by
  show (cfg3.win 2).cut (grid3.coords t) ((dat3 V c).after 2 t) = _
  rw [after3_2]
  unfold out3_2
  rw [View.canon_unit_zero origin]
  simp only [View.ld_unit_zero (S := S10000x64) origin, View.ld_unit_zero (S := S10000x1) origin]
  rw [payload]
  obtain ⟨e0, e1, e2, e3, e4, e5⟩ := idx_facts t
  funext j
  show FloatOps.mulf (V c main_v51 (((cfg3.win 0).blk t).view.emb j)) (V c main_v30 (((cfg3.win 1).blk t).view.emb (Cert.Stages.rowOf j)))
    = FloatOps.mulf (V c main_v51 (((cfg3.win 2).blk t).view.emb j)) (V c main_v30 (Cert.Stages.rowOf (((cfg3.win 2).blk t).view.emb j)))
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (Cert.Stages.rowOf j) = Cert.Stages.rowOf (((cfg3.win 2).blk t).view.emb j) := by
    funext a; apply Fin.ext
    match a with
    | ⟨0, _⟩ => show win3_1.index t (0 : Fin 2) * 10000 + 1 * (j 0).val = win3_2.index t (0 : Fin 2) * 10000 + 1 * (j 0).val; omega
    | ⟨1, _⟩ => show win3_1.index t (1 : Fin 2) * 1 + 1 * 0 = 0; omega
  rw [h0, h1]

/-- An entry of the output array lies in point t's block iff each coordinate lies in the block's range. -/
theorem mem_blk (t : Fin cfg3.N) (i : S2000000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v52).slice (win3_2.rect t)).set ↔ _
  rw [View.set_slice_whole, Rect.mem_set_unit]
  exact Iff.rfl

/-- Row r of the output is written by point r / 10000. -/
theorem cover (i : S2000000x64.Idx) :
    ∃ t : Fin cfg3.N, (cfg3.win 2).flush t = true ∧ i ∈ ((cfg3.win 2).blk t).view.set := by
  have hi0 : (i 0).val < 2000000 := (i 0).isLt
  have hi1 : (i 1).val < 64 := (i 1).isLt
  have hN : (i 0).val / 10000 < cfg3.N := by show _ < grid3.N; rw [N_3]; omega
  obtain ⟨e0, e1, e2, e3, e4, e5⟩ := idx_facts ⟨(i 0).val / 10000, hN⟩
  refine ⟨⟨(i 0).val / 10000, hN⟩, flush3_2 _, ?_⟩
  rw [mem_blk]
  intro a
  match a with
  | ⟨0, _⟩ =>
    show win3_2.index ⟨(i 0).val / 10000, hN⟩ (0 : Fin 2) * 10000 ≤ (i 0).val ∧ (i 0).val < win3_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, hN⟩ (1 : Fin 2) * 64 ≤ (i 1).val ∧ (i 1).val < win3_2.index ⟨(i 0).val / 10000, hN⟩ (1 : Fin 2) * 64 + 64
    rw [e5]; omega

/-- The output array after the launch: each gathered row times its edge's weight. -/
theorem final (c : Dev nD) :
    (dat3 V c).arrAt 2 cfg3.N = Cert.Stages.scaleRows (V c main_v51) (V c main_v30) :=
  (dat3 V c).arrAt_eq_of_cover 2 _ (fun t _ => flushed_eq V c t) cover

end Cert.KernelIdeal.Scale3

end
-- ==== Proof.Accum4.lean ====
/-
  The third accumulating launch: fifteen blocks of ten thousand rows each; block t of the output is the running
  output's block t plus a quarter of the layer's block t, so the whole output array is that function of the whole
  input arrays.
-/
import proofs.«169158_j37091337568955_2_alg».proof.Proof.Gen.KernelIdeal.Frame
import proofs.«169158_j37091337568955_2_alg».proof.Proof.Stages
import Idealize.ShloMosaic.Lib.Pipeline.Value

noncomputable section

namespace Cert.KernelIdeal.Accum4

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The body's stored value, entry by entry: the second operand's entry plus a quarter of the first's. -/
theorem payload (o x : Vec F S10000x64 .f32) :
    k4_pay1 o x = fun j => FloatOps.addf (o j) (FloatOps.mulf (x j) (Scalar.ofBits .f32 0x3E800000#32)) := by
  unfold k4_pay1
  rw [shapeCast_self, shapeCast_self]
  rfl

/-- All three windows move together: at point t each sits at block row t, block column 0. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the whole-array function. -/
theorem flushed_eq (c : Dev nD) (t : Fin cfg4.N) :
    (dat4 V c).flushed 2 t
      = ((cfg4.win 2).blk t).view.read (Elt F) (Cert.Stages.accum (V c main_v55) (V c main_v44)) := by
  show (cfg4.win 2).cut (grid4.coords t) ((dat4 V c).after 2 t) = _
  rw [after4_2]
  unfold out4_2
  rw [View.canon_unit_zero origin]
  simp only [View.ld_unit_zero (S := S10000x64) origin]
  rw [payload]
  obtain ⟨e0, e1, e2, e3, e4, e5⟩ := idx_facts t
  funext j
  show FloatOps.addf (V c main_v44 (((cfg4.win 1).blk t).view.emb j)) (FloatOps.mulf (V c main_v55 (((cfg4.win 0).blk t).view.emb j)) _)
    = FloatOps.addf (V c main_v44 (((cfg4.win 2).blk t).view.emb j)) (FloatOps.mulf (V c main_v55 (((cfg4.win 2).blk t).view.emb j)) _)
  have h0 : ((cfg4.win 0).blk t).view.emb j = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb j = ((cfg4.win 2).blk t).view.emb j := by
    funext a; apply Fin.ext
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 64 + 1 * (j 1).val = win4_2.index t (1 : Fin 2) * 64 + 1 * (j 1).val; omega
  rw [h0, h1]

/-- An entry of the output array lies in point t's block iff each coordinate lies in the block's range. -/
theorem mem_blk (t : Fin cfg4.N) (i : S150000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v56).slice (win4_2.rect t)).set ↔ _
  rw [View.set_slice_whole, Rect.mem_set_unit]
  exact Iff.rfl

/-- Row r of the output is written by point r / 10000. -/
theorem cover (i : S150000x64.Idx) :
    ∃ t : Fin cfg4.N, (cfg4.win 2).flush t = true ∧ i ∈ ((cfg4.win 2).blk t).view.set := by
  have hi0 : (i 0).val < 150000 := (i 0).isLt
  have hi1 : (i 1).val < 64 := (i 1).isLt
  have hN : (i 0).val / 10000 < cfg4.N := by show _ < grid4.N; rw [N_4]; omega
  obtain ⟨e0, e1, e2, e3, e4, e5⟩ := idx_facts ⟨(i 0).val / 10000, hN⟩
  refine ⟨⟨(i 0).val / 10000, hN⟩, flush4_2 _, ?_⟩
  rw [mem_blk]
  intro a
  match a with
  | ⟨0, _⟩ =>
    show win4_2.index ⟨(i 0).val / 10000, hN⟩ (0 : Fin 2) * 10000 ≤ (i 0).val ∧ (i 0).val < win4_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win4_2.index ⟨(i 0).val / 10000, hN⟩ (1 : Fin 2) * 64 ≤ (i 1).val ∧ (i 1).val < win4_2.index ⟨(i 0).val / 10000, hN⟩ (1 : Fin 2) * 64 + 64
    rw [e5]; omega

/-- The output array after the launch: the running output plus a quarter of the layer, entry by entry. -/
theorem final (c : Dev nD) :
    (dat4 V c).arrAt 2 cfg4.N = Cert.Stages.accum (V c main_v55) (V c main_v44) :=
  (dat4 V c).arrAt_eq_of_cover 2 _ (fun t _ => flushed_eq V c t) cover

end Cert.KernelIdeal.Accum4

end
-- ==== Proof.ChainC.lean ====
/-
  The buffers' contents at the boundaries of the second layer: its gather, its scaled messages, their sum at the
  targets, and the running output after it.
-/
import proofs.«169158_j37091337568955_2_alg».proof.Proof.ChainB
import proofs.«169158_j37091337568955_2_alg».proof.Proof.Scale3
import proofs.«169158_j37091337568955_2_alg».proof.Proof.Accum4
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the second gather -/
theorem gath11 (c : Dev nD) : W11 m ρ c (Proc.devRef .tc main_v51) = Cert.Spec.gathered (edges m c) (lay1 m c) := by
  show StableHlo.after hostOps3 (W10 m ρ c) (Proc.devRef .tc main_v51) = _
  simp only [hostOps3]
  after_results
  rw [src10 m ρ c, lay10 m ρ c]
  rfl
theorem src11 (c : Dev nD) : W11 m ρ c (Proc.devRef .tc main_v1) = Cert.Spec.src (edges m c) := by
  refine Eq.trans ?_ (src10 m ρ c)
  show StableHlo.after hostOps3 (W10 m ρ c) (Proc.devRef .tc main_v1) = _
  simp only [hostOps3]
  after_results
theorem tgt11 (c : Dev nD) : W11 m ρ c (Proc.devRef .tc main_v3) = Cert.Spec.tgt (edges m c) := by
  refine Eq.trans ?_ (tgt10 m ρ c)
  show StableHlo.after hostOps3 (W10 m ρ c) (Proc.devRef .tc main_v3) = _
  simp only [hostOps3]
  after_results
theorem weight11 (c : Dev nD) : W11 m ρ c (Proc.devRef .tc main_v30) = Cert.Spec.weight (edges m c) := by
  refine Eq.trans ?_ (weight10 m ρ c)
  show StableHlo.after hostOps3 (W10 m ρ c) (Proc.devRef .tc main_v30) = _
  simp only [hostOps3]
  after_results
theorem out111 (c : Dev nD) : W11 m ρ c (Proc.devRef .tc main_v44) = out1 m c := by
  refine Eq.trans ?_ (out10 m ρ c)
  show StableHlo.after hostOps3 (W10 m ρ c) (Proc.devRef .tc main_v44) = _
  simp only [hostOps3]
  after_results

/-! ## After the second scaling launch -/
theorem msg12 (c : Dev nD) : W12 m ρ c (Proc.devRef .tc main_v52) = Cert.Stages.scaleRows (Cert.Spec.gathered (edges m c) (lay1 m c)) (Cert.Spec.weight (edges m c)) := by
  refine (W12_arr m ρ c 2).trans ((Scale3.final (V11 m ρ) c).trans ?_)
  show Cert.Stages.scaleRows (W11 m ρ c (Proc.devRef .tc main_v51)) (W11 m ρ c (Proc.devRef .tc main_v30)) = _
  rw [gath11 m ρ c, weight11 m ρ c]
theorem src12 (c : Dev nD) : W12 m ρ c (Proc.devRef .tc main_v1) = Cert.Spec.src (edges m c) :=
  (W12_of_ne m ρ c main_v1 (by decide)).trans (src11 m ρ c)
theorem tgt12 (c : Dev nD) : W12 m ρ c (Proc.devRef .tc main_v3) = Cert.Spec.tgt (edges m c) :=
  (W12_of_ne m ρ c main_v3 (by decide)).trans (tgt11 m ρ c)
theorem weight12 (c : Dev nD) : W12 m ρ c (Proc.devRef .tc main_v30) = Cert.Spec.weight (edges m c) :=
  (W12_arr m ρ c 1).trans ((((dat3 (V11 m ρ) c).arrAt_in 1 rfl _).trans (A_eq3 (V11 m ρ) c 1)).trans (weight11 m ρ c))
theorem out112 (c : Dev nD) : W12 m ρ c (Proc.devRef .tc main_v44) = out1 m c :=
  (W12_of_ne m ρ c main_v44 (by decide)).trans (out111 m ρ c)

/-! ## After the second sum at the targets -/
theorem lay13 (c : Dev nD) : W13 m ρ c (Proc.devRef .tc main_v55) = lay2 m c := by
  show StableHlo.after hostOps4 (W12 m ρ c) (Proc.devRef .tc main_v55) = _
  simp only [hostOps4]
  after_results
  rw [tgt12 m ρ c, msg12 m ρ c]
  rfl
theorem src13 (c : Dev nD) : W13 m ρ c (Proc.devRef .tc main_v1) = Cert.Spec.src (edges m c) := by
  refine Eq.trans ?_ (src12 m ρ c)
  show StableHlo.after hostOps4 (W12 m ρ c) (Proc.devRef .tc main_v1) = _
  simp only [hostOps4]
  after_results
theorem tgt13 (c : Dev nD) : W13 m ρ c (Proc.devRef .tc main_v3) = Cert.Spec.tgt (edges m c) := by
  refine Eq.trans ?_ (tgt12 m ρ c)
  show StableHlo.after hostOps4 (W12 m ρ c) (Proc.devRef .tc main_v3) = _
  simp only [hostOps4]
  after_results
theorem weight13 (c : Dev nD) : W13 m ρ c (Proc.devRef .tc main_v30) = Cert.Spec.weight (edges m c) := by
  refine Eq.trans ?_ (weight12 m ρ c)
  show StableHlo.after hostOps4 (W12 m ρ c) (Proc.devRef .tc main_v30) = _
  simp only [hostOps4]
  after_results
theorem out113 (c : Dev nD) : W13 m ρ c (Proc.devRef .tc main_v44) = out1 m c := by
  refine Eq.trans ?_ (out112 m ρ c)
  show StableHlo.after hostOps4 (W12 m ρ c) (Proc.devRef .tc main_v44) = _
  simp only [hostOps4]
  after_results

/-! ## After the third accumulation -/
theorem out14 (c : Dev nD) : W14 m ρ c (Proc.devRef .tc main_v56) = out2 m c := by
  refine (W14_arr m ρ c 2).trans ((Accum4.final (V13 m ρ) c).trans ?_)
  show Cert.Stages.accum (W13 m ρ c (Proc.devRef .tc main_v55)) (W13 m ρ c (Proc.devRef .tc main_v44)) = _
  rw [lay13 m ρ c, out113 m ρ c]
theorem src14 (c : Dev nD) : W14 m ρ c (Proc.devRef .tc main_v1) = Cert.Spec.src (edges m c) :=
  (W14_of_ne m ρ c main_v1 (by decide)).trans (src13 m ρ c)
theorem tgt14 (c : Dev nD) : W14 m ρ c (Proc.devRef .tc main_v3) = Cert.Spec.tgt (edges m c) :=
  (W14_of_ne m ρ c main_v3 (by decide)).trans (tgt13 m ρ c)
theorem weight14 (c : Dev nD) : W14 m ρ c (Proc.devRef .tc main_v30) = Cert.Spec.weight (edges m c) :=
  (W14_of_ne m ρ c main_v30 (by decide)).trans (weight13 m ρ c)
theorem lay14 (c : Dev nD) : W14 m ρ c (Proc.devRef .tc main_v55) = lay2 m c :=
  (W14_arr m ρ c 0).trans ((((dat4 (V13 m ρ) c).arrAt_in 0 rfl _).trans (A_eq4 (V13 m ρ) c 0)).trans (lay13 m ρ c))

end Cert.KernelIdeal.Chain

end
-- ==== Proof.Scale5.lean ====
/-
  The third scaling launch: two hundred blocks of ten thousand edges each; block t of the output is block t of the gathered
  rows, each row times its edge's weight, so the whole output array is that function of the whole input arrays.
-/
import proofs.«169158_j37091337568955_2_alg».proof.Proof.Gen.KernelIdeal.Frame
import proofs.«169158_j37091337568955_2_alg».proof.Proof.Stages
import proofs.«169158_j37091337568955_2_alg».proof.Proof.LibColumnBroadcast
import Idealize.ShloMosaic.Lib.Pipeline.Value

noncomputable section

namespace Cert.KernelIdeal.Scale5

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The body's stored value, entry by entry: the row's entry times the row's weight. -/
theorem payload (x : Vec F S10000x64 .f32) (n : Vec F S10000x1 .f32) :
    k5_pay1 x n = Cert.Stages.scaleRows x n := by
  unfold k5_pay1
  rw [shapeCast_self, shapeCast_self]
  funext j
  obtain ⟨p, q, rfl⟩ : ∃ (p : Fin 10000) (q : Fin 64), j = ix2 p q := ⟨j 0, j 1, eq_ix2 j⟩
  show FloatOps.mulf (x (ix2 p q)) (broadcastTo S10000x64 n broadcasts_S10000x1_S10000x64 (ix2 p q)) = _
  rw [Cert.Lib.broadcastTo_a1_ab_apply]
  rfl

/-- All three windows move together: at point t each sits at block row t, block column 0. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point t writes back is block t of the whole-array function. -/
theorem flushed_eq (c : Dev nD) (t : Fin cfg5.N) :
    (dat5 V c).flushed 2 t
      = ((cfg5.win 2).blk t).view.read (Elt F) (Cert.Stages.scaleRows (V c main_v63) (V c main_v30)) := by
  show (cfg5.win 2).cut (grid5.coords t) ((dat5 V c).after 2 t) = _
  rw [after5_2]
  unfold out5_2
  rw [View.canon_unit_zero origin]
  simp only [View.ld_unit_zero (S := S10000x64) origin, View.ld_unit_zero (S := S10000x1) origin]
  rw [payload]
  obtain ⟨e0, e1, e2, e3, e4, e5⟩ := idx_facts t
  funext j
  show FloatOps.mulf (V c main_v63 (((cfg5.win 0).blk t).view.emb j)) (V c main_v30 (((cfg5.win 1).blk t).view.emb (Cert.Stages.rowOf j)))
    = FloatOps.mulf (V c main_v63 (((cfg5.win 2).blk t).view.emb j)) (V c main_v30 (Cert.Stages.rowOf (((cfg5.win 2).blk t).view.emb j)))
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb (Cert.Stages.rowOf j) = Cert.Stages.rowOf (((cfg5.win 2).blk t).view.emb j) := by
    funext a; apply Fin.ext
    match a with
    | ⟨0, _⟩ => show win5_1.index t (0 : Fin 2) * 10000 + 1 * (j 0).val = win5_2.index t (0 : Fin 2) * 10000 + 1 * (j 0).val; omega
    | ⟨1, _⟩ => show win5_1.index t (1 : Fin 2) * 1 + 1 * 0 = 0; omega
  rw [h0, h1]

/-- An entry of the output array lies in point t's block iff each coordinate lies in the block's range. -/
theorem mem_blk (t : Fin cfg5.N) (i : S2000000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v64).slice (win5_2.rect t)).set ↔ _
  rw [View.set_slice_whole, Rect.mem_set_unit]
  exact Iff.rfl

/-- Row r of the output is written by point r / 10000. -/
theorem cover (i : S2000000x64.Idx) :
    ∃ t : Fin cfg5.N, (cfg5.win 2).flush t = true ∧ i ∈ ((cfg5.win 2).blk t).view.set := by
  have hi0 : (i 0).val < 2000000 := (i 0).isLt
  have hi1 : (i 1).val < 64 := (i 1).isLt
  have hN : (i 0).val / 10000 < cfg5.N := by show _ < grid5.N; rw [N_5]; omega
  obtain ⟨e0, e1, e2, e3, e4, e5⟩ := idx_facts ⟨(i 0).val / 10000, hN⟩
  refine ⟨⟨(i 0).val / 10000, hN⟩, flush5_2 _, ?_⟩
  rw [mem_blk]
  intro a
  match a with
  | ⟨0, _⟩ =>
    show win5_2.index ⟨(i 0).val / 10000, hN⟩ (0 : Fin 2) * 10000 ≤ (i 0).val ∧ (i 0).val < win5_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win5_2.index ⟨(i 0).val / 10000, hN⟩ (1 : Fin 2) * 64 ≤ (i 1).val ∧ (i 1).val < win5_2.index ⟨(i 0).val / 10000, hN⟩ (1 : Fin 2) * 64 + 64
    rw [e5]; omega

/-- The output array after the launch: each gathered row times its edge's weight. -/
theorem final (c : Dev nD) :
    (dat5 V c).arrAt 2 cfg5.N = Cert.Stages.scaleRows (V c main_v63) (V c main_v30) :=
  (dat5 V c).arrAt_eq_of_cover 2 _ (fun t _ => flushed_eq V c t) cover

end Cert.KernelIdeal.Scale5

end
-- ==== Proof.Accum6.lean ====
/-
  The fourth accumulating launch: fifteen blocks of ten thousand rows each; block t of the output is the running
  output's block t plus a quarter of the layer's block t, so the whole output array is that function of the whole
  input arrays.
-/
import proofs.«169158_j37091337568955_2_alg».proof.Proof.Gen.KernelIdeal.Frame
import proofs.«169158_j37091337568955_2_alg».proof.Proof.Stages
import Idealize.ShloMosaic.Lib.Pipeline.Value

noncomputable section

namespace Cert.KernelIdeal.Accum6

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The body's stored value, entry by entry: the second operand's entry plus a quarter of the first's. -/
theorem payload (o x : Vec F S10000x64 .f32) :
    k6_pay1 o x = fun j => FloatOps.addf (o j) (FloatOps.mulf (x j) (Scalar.ofBits .f32 0x3E800000#32)) := by
  unfold k6_pay1
  rw [shapeCast_self, shapeCast_self]
  rfl

/-- All three windows move together: at point t each sits at block row t, block column 0. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What point t writes back is block t of the whole-array function. -/
theorem flushed_eq (c : Dev nD) (t : Fin cfg6.N) :
    (dat6 V c).flushed 2 t
      = ((cfg6.win 2).blk t).view.read (Elt F) (Cert.Stages.accum (V c main_v67) (V c main_v56)) := by
  show (cfg6.win 2).cut (grid6.coords t) ((dat6 V c).after 2 t) = _
  rw [after6_2]
  unfold out6_2
  rw [View.canon_unit_zero origin]
  simp only [View.ld_unit_zero (S := S10000x64) origin]
  rw [payload]
  obtain ⟨e0, e1, e2, e3, e4, e5⟩ := idx_facts t
  funext j
  show FloatOps.addf (V c main_v56 (((cfg6.win 1).blk t).view.emb j)) (FloatOps.mulf (V c main_v67 (((cfg6.win 0).blk t).view.emb j)) _)
    = FloatOps.addf (V c main_v56 (((cfg6.win 2).blk t).view.emb j)) (FloatOps.mulf (V c main_v67 (((cfg6.win 2).blk t).view.emb j)) _)
  have h0 : ((cfg6.win 0).blk t).view.emb j = ((cfg6.win 2).blk t).view.emb j := by
    funext a; apply Fin.ext
    match a with
    | ⟨0, _⟩ => show win6_0.index t (0 : Fin 2) * 10000 + 1 * (j 0).val = win6_2.index t (0 : Fin 2) * 10000 + 1 * (j 0).val; omega
    | ⟨1, _⟩ => show win6_0.index t (1 : Fin 2) * 64 + 1 * (j 1).val = win6_2.index t (1 : Fin 2) * 64 + 1 * (j 1).val; omega
  have h1 : ((cfg6.win 1).blk t).view.emb j = ((cfg6.win 2).blk t).view.emb j := by
    funext a; apply Fin.ext
    match a with
    | ⟨0, _⟩ => show win6_1.index t (0 : Fin 2) * 10000 + 1 * (j 0).val = win6_2.index t (0 : Fin 2) * 10000 + 1 * (j 0).val; omega
    | ⟨1, _⟩ => show win6_1.index t (1 : Fin 2) * 64 + 1 * (j 1).val = win6_2.index t (1 : Fin 2) * 64 + 1 * (j 1).val; omega
  rw [h0, h1]

/-- An entry of the output array lies in point t's block iff each coordinate lies in the block's range. -/
theorem mem_blk (t : Fin cfg6.N) (i : S150000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v68).slice (win6_2.rect t)).set ↔ _
  rw [View.set_slice_whole, Rect.mem_set_unit]
  exact Iff.rfl

/-- Row r of the output is written by point r / 10000. -/
theorem cover (i : S150000x64.Idx) :
    ∃ t : Fin cfg6.N, (cfg6.win 2).flush t = true ∧ i ∈ ((cfg6.win 2).blk t).view.set := by
  have hi0 : (i 0).val < 150000 := (i 0).isLt
  have hi1 : (i 1).val < 64 := (i 1).isLt
  have hN : (i 0).val / 10000 < cfg6.N := by show _ < grid6.N; rw [N_6]; omega
  obtain ⟨e0, e1, e2, e3, e4, e5⟩ := idx_facts ⟨(i 0).val / 10000, hN⟩
  refine ⟨⟨(i 0).val / 10000, hN⟩, flush6_2 _, ?_⟩
  rw [mem_blk]
  intro a
  match a with
  | ⟨0, _⟩ =>
    show win6_2.index ⟨(i 0).val / 10000, hN⟩ (0 : Fin 2) * 10000 ≤ (i 0).val ∧ (i 0).val < win6_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win6_2.index ⟨(i 0).val / 10000, hN⟩ (1 : Fin 2) * 64 ≤ (i 1).val ∧ (i 1).val < win6_2.index ⟨(i 0).val / 10000, hN⟩ (1 : Fin 2) * 64 + 64
    rw [e5]; omega

/-- The output array after the launch: the running output plus a quarter of the layer, entry by entry. -/
theorem final (c : Dev nD) :
    (dat6 V c).arrAt 2 cfg6.N = Cert.Stages.accum (V c main_v67) (V c main_v56) :=
  (dat6 V c).arrAt_eq_of_cover 2 _ (fun t _ => flushed_eq V c t) cover

end Cert.KernelIdeal.Accum6

end
-- ==== Proof.ChainD.lean ====
/-
  The buffers' contents at the boundaries of the third layer, and the returned array: the running output after the
  third layer, which is the propagation's result as one function of the two arguments.
-/
import proofs.«169158_j37091337568955_2_alg».proof.Proof.ChainC
import proofs.«169158_j37091337568955_2_alg».proof.Proof.Scale5
import proofs.«169158_j37091337568955_2_alg».proof.Proof.Accum6
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the third gather -/
theorem gath15 (c : Dev nD) : W15 m ρ c (Proc.devRef .tc main_v63) = Cert.Spec.gathered (edges m c) (lay2 m c) := by
  show StableHlo.after hostOps5 (W14 m ρ c) (Proc.devRef .tc main_v63) = _
  simp only [hostOps5]
  after_results
  rw [src14 m ρ c, lay14 m ρ c]
  rfl
theorem tgt15 (c : Dev nD) : W15 m ρ c (Proc.devRef .tc main_v3) = Cert.Spec.tgt (edges m c) := by
  refine Eq.trans ?_ (tgt14 m ρ c)
  show StableHlo.after hostOps5 (W14 m ρ c) (Proc.devRef .tc main_v3) = _
  simp only [hostOps5]
  after_results
theorem weight15 (c : Dev nD) : W15 m ρ c (Proc.devRef .tc main_v30) = Cert.Spec.weight (edges m c) := by
  refine Eq.trans ?_ (weight14 m ρ c)
  show StableHlo.after hostOps5 (W14 m ρ c) (Proc.devRef .tc main_v30) = _
  simp only [hostOps5]
  after_results
theorem out215 (c : Dev nD) : W15 m ρ c (Proc.devRef .tc main_v56) = out2 m c := by
  refine Eq.trans ?_ (out14 m ρ c)
  show StableHlo.after hostOps5 (W14 m ρ c) (Proc.devRef .tc main_v56) = _
  simp only [hostOps5]
  after_results

/-! ## After the third scaling launch -/
theorem msg16 (c : Dev nD) : W16 m ρ c (Proc.devRef .tc main_v64) = Cert.Stages.scaleRows (Cert.Spec.gathered (edges m c) (lay2 m c)) (Cert.Spec.weight (edges m c)) := by
  refine (W16_arr m ρ c 2).trans ((Scale5.final (V15 m ρ) c).trans ?_)
  show Cert.Stages.scaleRows (W15 m ρ c (Proc.devRef .tc main_v63)) (W15 m ρ c (Proc.devRef .tc main_v30)) = _
  rw [gath15 m ρ c, weight15 m ρ c]
theorem tgt16 (c : Dev nD) : W16 m ρ c (Proc.devRef .tc main_v3) = Cert.Spec.tgt (edges m c) :=
  (W16_of_ne m ρ c main_v3 (by decide)).trans (tgt15 m ρ c)
theorem out216 (c : Dev nD) : W16 m ρ c (Proc.devRef .tc main_v56) = out2 m c :=
  (W16_of_ne m ρ c main_v56 (by decide)).trans (out215 m ρ c)

/-! ## After the third sum at the targets -/
theorem lay17 (c : Dev nD) : W17 m ρ c (Proc.devRef .tc main_v67) = lay3 m c := by
  show StableHlo.after hostOps6 (W16 m ρ c) (Proc.devRef .tc main_v67) = _
  simp only [hostOps6]
  after_results
  rw [tgt16 m ρ c, msg16 m ρ c]
  rfl
theorem out217 (c : Dev nD) : W17 m ρ c (Proc.devRef .tc main_v56) = out2 m c := by
  refine Eq.trans ?_ (out216 m ρ c)
  show StableHlo.after hostOps6 (W16 m ρ c) (Proc.devRef .tc main_v56) = _
  simp only [hostOps6]
  after_results

/-! ## After the last accumulation -/
theorem out18 (c : Dev nD) : W18 m ρ c (Proc.devRef .tc main_v68) = out3 m c := by
  refine (W18_arr m ρ c 2).trans ((Accum6.final (V17 m ρ) c).trans ?_)
  show Cert.Stages.accum (W17 m ρ c (Proc.devRef .tc main_v67)) (W17 m ρ c (Proc.devRef .tc main_v56)) = _
  rw [lay17 m ρ c, out217 m ρ c]

/-- The returned array after the run is the propagation's result of the arguments as launched. -/
theorem returned (c : Dev nD) :
    W18 m ρ c (Proc.devRef .tc main_v68) = Cert.Spec.result (edges m c) (embeddings m c) :=
  (out18 m ρ c).trans rfl

end Cert.KernelIdeal.Chain

end
-- ==== Proof.LibHostBroadcast.lean ====
/-
  The host's broadcast_in_dim in the shapes a keepdims computation uses, each read at an index, for any element
  type and any extents: a column [a, 1] and a row [1, b] spread over [a, b]; a vector [b] placed as the row
  [1, b] and a vector [a] placed as the column [a, 1]; a scalar spread over any shape.
-/
import Idealize.ShloMosaic.Lib.Pipeline.Value
import Idealize.ShloMosaic.Lib.ValueIdx

namespace Cert.LibHostBroadcast

open Idealize.ShloMosaic Idealize.ShloMosaic.ValueIdx

/-- A column [a, 1] broadcast over [a, b] along dims [0, 1], read at (p, c): the column's entry in row p. -/
theorem col_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply ![0, 1] h v (ix2 p c) (ix2 p (0 : Fin 1)) fun ax => by
    match ax with
    | ⟨0, _⟩ =>
      show p.val = if a = 1 then 0 else p.val
      split
      · have := p.isLt; omega
      · rfl
    | ⟨1, _⟩ =>
      show (0 : ℕ) = if (1 : ℕ) = 1 then 0 else c.val
      rw [if_pos rfl]

/-- A row [1, b] broadcast over [a, b] along dims [0, 1], read at (p, c): the row's entry in column c. -/
theorem row_apply {α : Type} {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply ![0, 1] h v (ix2 p c) (ix2 (0 : Fin 1) c) fun ax => by
    match ax with
    | ⟨0, _⟩ =>
      show (0 : ℕ) = if (1 : ℕ) = 1 then 0 else p.val
      rw [if_pos rfl]
    | ⟨1, _⟩ =>
      show c.val = if b = 1 then 0 else c.val
      split
      · have := c.isLt; omega
      · rfl

/-- A vector [b] placed as the row [1, b] (dims [1]), read at (u, c): the vector at c. -/
theorem vec_row_apply {α : Type} {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) :=
  broadcastInDim_apply ![1] h v (ix2 u c) (ix1 c) fun ax => by
    match ax with
    | ⟨0, _⟩ =>
      show c.val = if b = 1 then 0 else c.val
      split
      · have := c.isLt; omega
      · rfl

/-- A vector [a] placed as the column [a, 1] (dims [0]), read at (p, u): the vector at p. -/
theorem vec_col_apply {α : Type} {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply ![0] h v (ix2 p u) (ix1 p) fun ax => by
    match ax with
    | ⟨0, _⟩ =>
      show p.val = if a = 1 then 0 else p.val
      split
      · have := p.isLt; omega
      · rfl

/-- A scalar broadcast over any shape, read anywhere: the scalar. -/
theorem scalar_apply {α : Type} {t : Shape} (v : (⟨0, ![]⟩ : Shape).Idx → α)
    (h : (⟨0, ![]⟩ : Shape).BroadcastsInDim t ![]) (i : t.Idx) :
    broadcastInDim t ![] h v i = v ix0 :=
  broadcastInDim_apply ![] h v i ix0 fun ax => ax.elim0

end Cert.LibHostBroadcast
-- ==== Proof.RefResult.lean ====
/-
  The reference's result is the propagation's result. Its operations, read as they stand, multiply the gathered rows by
  the weights spread over the feature axis, and add each layer times a quarter spread over the whole array; both are
  the entry-by-entry stages. The one difference from the kernel's order of work is the start: the reference begins
  from a quarter of the embeddings, the kernel adds that quarter onto an array of zeros, and 0 + x = x for every
  extended real x.
-/
import proofs.«169158_j37091337568955_2_alg».proof.Proof.RefRun
import proofs.«169158_j37091337568955_2_alg».proof.Proof.Spec
import proofs.«169158_j37091337568955_2_alg».proof.Proof.LibHostBroadcast
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.ValueIdx

variable {F : FTy → Type} [FloatOps F]

/-- A quarter at every entry. -/
def quarter : (⟨S150000x64, .f32⟩ : BufTy).Contents (Elt F) :=
  broadcastInDim S150000x64 ![] bcast_S_S150000x64 (constant (F := F) S_ .f32 0x3E800000#32)

/-- One layer as the reference's operations compute it. -/
def refLayer (ei : (⟨S2x2000000, .i32⟩ : BufTy).Contents (Elt F)) (h : (⟨S150000x64, .f32⟩ : BufTy).Contents (Elt F)) :
    (⟨S150000x64, .f32⟩ : BufTy).Contents (Elt F) :=
  Cert.Spec.summed (F := F) ei
    (mulf (Cert.Spec.gathered (F := F) ei h)
      (broadcastInDim S2000000x64 ![0, 1] bcast_S2000000x1_S2000000x64_0_1 (Cert.Spec.weight (F := F) ei)))

/-- The reference's composed term, stage by stage. -/
theorem res_staged (m : (ℓ : Loc nD τ sig) → Buf (Elt F) ℓ) (c : Dev nD) :
    Cert.ReferenceIdeal.ValueP.res_main_v77 m c
      = addf (addf (addf
          (mulf (m ((c.tc : Thread nD τ).loc main_arg1)) (quarter (F := F)))
          (mulf (refLayer (F := F) (m ((c.tc : Thread nD τ).loc main_arg0)) (m ((c.tc : Thread nD τ).loc main_arg1))) (quarter (F := F))))
          (mulf (refLayer (F := F) (m ((c.tc : Thread nD τ).loc main_arg0))
            (refLayer (F := F) (m ((c.tc : Thread nD τ).loc main_arg0)) (m ((c.tc : Thread nD τ).loc main_arg1)))) (quarter (F := F))))
          (mulf (refLayer (F := F) (m ((c.tc : Thread nD τ).loc main_arg0))
            (refLayer (F := F) (m ((c.tc : Thread nD τ).loc main_arg0))
              (refLayer (F := F) (m ((c.tc : Thread nD τ).loc main_arg0)) (m ((c.tc : Thread nD τ).loc main_arg1))))) (quarter (F := F))) := by
  unfold Cert.ReferenceIdeal.ValueP.res_main_v77
  rfl

/-- Rows times weights spread over the feature axis: each row times its own weight. -/
theorem mul_spread (x : (⟨S2000000x64, .f32⟩ : BufTy).Contents (Elt F)) (n : (⟨S2000000x1, .f32⟩ : BufTy).Contents (Elt F)) :
    mulf x (broadcastInDim S2000000x64 ![0, 1] bcast_S2000000x1_S2000000x64_0_1 n) = Cert.Stages.scaleRows x n := by
  funext i
  obtain ⟨p, q, rfl⟩ : ∃ (p : Fin 2000000) (q : Fin 64), i = ix2 p q := ⟨i 0, i 1, eq_ix2 i⟩
  show FloatOps.mulf (x (ix2 p q)) (broadcastInDim S2000000x64 ![0, 1] bcast_S2000000x1_S2000000x64_0_1 n (ix2 p q))
    = FloatOps.mulf (x (ix2 p q)) (n (ix2 p (0 : Fin 1)))
  rw [Cert.LibHostBroadcast.col_apply]

theorem refLayer_eq (ei : (⟨S2x2000000, .i32⟩ : BufTy).Contents (Elt F)) (h : (⟨S150000x64, .f32⟩ : BufTy).Contents (Elt F)) :
    refLayer (F := F) ei h = Cert.Spec.layer (F := F) ei h := by
  unfold refLayer Cert.Spec.layer
  rw [mul_spread]

/-- An array plus a layer times the quarter array: the accumulation stage. -/
theorem add_quarter (o h : (⟨S150000x64, .f32⟩ : BufTy).Contents (Elt F)) :
    addf o (mulf h (quarter (F := F))) = Cert.Stages.accum h o := by
  funext i
  show FloatOps.addf (o i) (FloatOps.mulf (h i)
      (broadcastInDim S150000x64 ![] bcast_S_S150000x64 (constant (F := F) S_ .f32 0x3E800000#32) i)) = _
  rw [Cert.LibHostBroadcast.scalar_apply]
  rfl

/-- At the extended reals a quarter of the embeddings is that quarter added onto zeros. -/
theorem start_eq (x : (⟨S150000x64, .f32⟩ : BufTy).Contents (Elt Ideal)) :
    mulf x (quarter (F := Ideal)) = Cert.Stages.accum (F := Ideal) x (Cert.Spec.zeroRows (F := Ideal)) := by
  funext i
  show x i * (broadcastInDim S150000x64 ![] bcast_S_S150000x64 (constant (F := Ideal) S_ .f32 0x3E800000#32) i)
    = (broadcastInDim S150000x64 ![] bcast_S_S150000x64 (constant (F := Ideal) S_ .f32 0x00000000#32) i)
      + x i * (Ideal.ofBits .f32 0x3E800000#32)
  rw [Cert.LibHostBroadcast.scalar_apply, Cert.LibHostBroadcast.scalar_apply]
  show x i * Ideal.ofBits .f32 0x3E800000#32 = Ideal.ofBits .f32 0x00000000#32 + x i * Ideal.ofBits .f32 0x3E800000#32
  rw [Ideal.ofBits_zero_f32, zero_add]

/-- The reference's result, at the extended reals, is the propagation's result of its arguments. -/
theorem result_eq (m : (ℓ : Loc nD τ sig) → Buf (Elt Ideal) ℓ) (c : Dev nD) :
    Cert.ReferenceIdeal.ValueP.res_main_v77 (F := Ideal) m c
      = Cert.Spec.result (F := Ideal) (m ((c.tc : Thread nD τ).loc main_arg0)) (m ((c.tc : Thread nD τ).loc main_arg1)) := by
  rw [res_staged]
  simp only [refLayer_eq]
  rw [start_eq, add_quarter, add_quarter, add_quarter]
  rfl

end Cert.ReferenceIdeal.RefValue

end
-- ==== Proof.lean ====
/-
  The certificate: the three programs run to their end with the arguments unchanged, the idealized kernel is the
  kernel's own text read at the extended reals (no operation of it was rewritten), and the idealized kernel and the
  idealized reference return the same array.

  The mathematics of the last claim. Both programs compute, from the edge list, every edge's weight (the product of
  the inverse square root out-degrees of its two ends), and then three times: gather every edge's source row, scale
  it by the edge's weight, and sum the scaled rows at the edges' targets. The kernel does the scaling and the running
  sum "output + layer / 4" in tiled launches whose blocks are restrictions of one whole-array function each, so each
  launch leaves that function of its input arrays; threading these through the host operations between the launches
  gives the returned array as one function of the two arguments. The reference computes the same stages with whole
  arrays. They differ only at the start: the kernel adds the embeddings' quarter onto zeros, the reference starts
  from the quarter itself, and 0 + x = x at every extended real, infinite ones included, so no finiteness is used.
-/
import proofs.«169158_j37091337568955_2_alg».proof.Defs
import proofs.«169158_j37091337568955_2_alg».proof.Proof.Gen.Kernel
import proofs.«169158_j37091337568955_2_alg».proof.Proof.Gen.Kernel.Skeleton
import proofs.«169158_j37091337568955_2_alg».proof.Proof.Gen.Kernel.Launch
import proofs.«169158_j37091337568955_2_alg».proof.Proof.Gen.Kernel.Points
import proofs.«169158_j37091337568955_2_alg».proof.Proof.Gen.Kernel.Frame
import proofs.«169158_j37091337568955_2_alg».proof.Proof.Gen.KernelIdeal
import proofs.«169158_j37091337568955_2_alg».proof.Proof.Gen.KernelIdeal.Skeleton
import proofs.«169158_j37091337568955_2_alg».proof.Proof.Gen.KernelIdeal.Launch
import proofs.«169158_j37091337568955_2_alg».proof.Proof.Gen.KernelIdeal.Points
import proofs.«169158_j37091337568955_2_alg».proof.Proof.Gen.KernelIdeal.Frame
import proofs.«169158_j37091337568955_2_alg».proof.Proof.Gen.ReferenceIdeal
import proofs.«169158_j37091337568955_2_alg».proof.Proof.Gen.Pre_finite_inputs
import proofs.«169158_j37091337568955_2_alg».proof.Proof.KernelRun
import proofs.«169158_j37091337568955_2_alg».proof.Proof.ChainD
import proofs.«169158_j37091337568955_2_alg».proof.Proof.RefRun
import proofs.«169158_j37091337568955_2_alg».proof.Proof.RefResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both idealized programs return the propagation's result of the shared arguments. -/
theorem algebraic : Cert.algebraic_KernelIdeal_ReferenceIdeal := by
  intro m ρ m' ρ' _ hagree
  refine ⟨fun c => Cert.Spec.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Chain.returned m ρ c), (h c).2.1, (h c).2.2⟩)
      (Cert.KernelIdeal.RunValue.run_end (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
